-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x2048 : Shape := ⟨3, ![2, 2048, 2048]⟩
abbrev S8192x2048 : Shape := ⟨2, ![8192, 2048]⟩
abbrev S8192 : Shape := ⟨1, ![8192]⟩
abbrev S131072 : Shape := ⟨1, ![131072]⟩
abbrev S_ : Shape := ⟨0, ![]⟩

class Facts : Prop where
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S8192 : S_.BroadcastsInDim S8192 (![] : Fin 0 → Fin S8192.rank)
  reducesTo_S8192_S_d0 : S8192.ReducesTo [0] S_
  bcast_S_S131072 : S_.BroadcastsInDim S131072 (![] : Fin 0 → Fin S131072.rank)
  reducesTo_S131072_S_d0 : S131072.ReducesTo [0] S_

variable [Facts]

def fn_part1 {F : FTy → Type} [FloatOps F] (main_arg4 : FVec F S131072 .f32) (main_arg5 : FVec F S131072 .f32) (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  let main_v19 : FVec F S131072 .f32 := Host.absf main_arg4
  let main_cst_6 : FVec F S_ .f32 := constant S_ .f32 0x7F800000#32
  let main_v20 : FVec F S131072 .f32 := broadcastInDim S131072 ![] bcast_S_S131072 main_cst_6
  let main_v21 : IVec S131072 1 := cmpf .olt main_v19 main_v20
  let main_c_7 : IVec S_ 1 := constantI S_ 1 1#1
  let main_v22 : IVec S_ 1 := (fun x v => Host.reduce IntOp.andi x v reducesTo_S131072_S_d0 h_S_) main_v21 main_c_7
  let main_v23 : IVec S_ 1 := andi main_v18 main_v22
  let main_v24 : FVec F S131072 .f32 := Host.absf main_arg5
  let main_cst_8 : FVec F S_ .f32 := constant S_ .f32 0x7F800000#32
  let main_v25 : FVec F S131072 .f32 := broadcastInDim S131072 ![] bcast_S_S131072 main_cst_8
  let main_v26 : IVec S131072 1 := cmpf .olt main_v24 main_v25
  let main_c_9 : IVec S_ 1 := constantI S_ 1 1#1
  let main_v27 : IVec S_ 1 := (fun x v => Host.reduce IntOp.andi x v reducesTo_S131072_S_d0 h_S_) main_v26 main_c_9
  let main_v28 : IVec S_ 1 := andi main_v23 main_v27
  main_v28

def fn {F : FTy → Type} [FloatOps F] (main_arg0 : FVec F S2x2048x2048 .f32) (main_arg1 : FVec F S8192x2048 .f32) (main_arg2 : FVec F S8192 .f32) (main_arg3 : FVec F S8192x2048 .f32) (main_arg4 : FVec F S131072 .f32) (main_arg5 : FVec F S131072 .f32) : IVec S_ 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_c : IVec S_ 1 := constantI S_ 1 1#1
  let main_v3 : IVec S_ 1 := (fun x v => Host.reduce IntOp.andi x v reducesTo_S2x2048x2048_S_d0_1_2 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_arg4 main_arg5 main_v13 main_v16
-- ==== Kernel.lean ====
abbrev S2x2048x2048 : Shape := ⟨3, ![2, 2048, 2048]⟩
abbrev S8192x2048 : Shape := ⟨2, ![8192, 2048]⟩
abbrev S8192 : Shape := ⟨1, ![8192]⟩
abbrev S131072 : Shape := ⟨1, ![131072]⟩
abbrev S8192x16 : Shape := ⟨2, ![8192, 16]⟩
abbrev S512x2048 : Shape := ⟨2, ![512, 2048]⟩
abbrev S512x16 : Shape := ⟨2, ![512, 16]⟩
abbrev S512x128 : Shape := ⟨2, ![512, 128]⟩
abbrev S512x1 : Shape := ⟨2, ![512, 1]⟩
abbrev S512 : Shape := ⟨1, ![512]⟩
abbrev S4096x2048 : Shape := ⟨2, ![4096, 2048]⟩
abbrev S1x8192 : Shape := ⟨2, ![1, 8192]⟩
abbrev S4096x8192 : Shape := ⟨2, ![4096, 8192]⟩
abbrev S2048x2048 : Shape := ⟨2, ![2048, 2048]⟩
abbrev S1x2048 : Shape := ⟨2, ![1, 2048]⟩
abbrev S2x2048x8192 : Shape := ⟨3, ![2, 2048, 8192]⟩

abbrev nBuf : Space → Nat
  | .hbm => 13
  | .vmem => 18
  | .smem => 0
  | _ => 0

abbrev bufTy : (tb : Table) → Fin (tcTables nBuf tb) → BufTy
  | .hbm, ⟨0, _⟩ => ⟨S2x2048x2048, .f32⟩
  | .hbm, ⟨1, _⟩ => ⟨S8192x2048, .f32⟩
  | .hbm, ⟨2, _⟩ => ⟨S8192, .f32⟩
  | .hbm, ⟨3, _⟩ => ⟨S8192x2048, .f32⟩
  | .hbm, ⟨4, _⟩ => ⟨S131072, .f32⟩
  | .hbm, ⟨5, _⟩ => ⟨S131072, .f32⟩
  | .hbm, ⟨6, _⟩ => ⟨S8192x16, .f32⟩
  | .hbm, ⟨7, _⟩ => ⟨S8192x16, .f32⟩
  | .hbm, ⟨8, _⟩ => ⟨S8192x2048, .bf16⟩
  | .hbm, ⟨9, _⟩ => ⟨S4096x2048, .f32⟩
  | .hbm, ⟨10, _⟩ => ⟨S1x8192, .f32⟩
  | .hbm, ⟨11, _⟩ => ⟨S4096x8192, .f32⟩
  | .hbm, ⟨12, _⟩ => ⟨S2x2048x8192, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x16, .f32⟩
  | .local _ .vmem, ⟨5, _⟩ => ⟨S512x16, .f32⟩
  | .local _ .vmem, ⟨6, _⟩ => ⟨S512x16, .f32⟩
  | .local _ .vmem, ⟨7, _⟩ => ⟨S512x16, .f32⟩
  | .local _ .vmem, ⟨8, _⟩ => ⟨S512x2048, .bf16⟩
  | .local _ .vmem, ⟨9, _⟩ => ⟨S512x2048, .bf16⟩
  | .local _ .vmem, ⟨10, _⟩ => ⟨S512x2048, .f32⟩
  | .local _ .vmem, ⟨11, _⟩ => ⟨S512x2048, .f32⟩
  | .local _ .vmem, ⟨12, _⟩ => ⟨S2048x2048, .bf16⟩
  | .local _ .vmem, ⟨13, _⟩ => ⟨S2048x2048, .bf16⟩
  | .local _ .vmem, ⟨14, _⟩ => ⟨S1x2048, .f32⟩
  | .local _ .vmem, ⟨15, _⟩ => ⟨S1x2048, .f32⟩
  | .local _ .vmem, ⟨16, _⟩ => ⟨S512x2048, .f32⟩
  | .local _ .vmem, ⟨17, _⟩ => ⟨S512x2048, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![4, 8], ![false, false]⟩

def cc1_transform_0 (i : grid1.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let v11 : BitVec 1 := Scalar.cmpi .eq v10 c0_i32_3
  let v12 : BitVec 32 := Scalar.select v11 arg1 v0
  let c0_i32_4 : BitVec 32 := 0#32
  let c0_i32_5 : BitVec 32 := 0#32
  ![v12.toNat, c0_i32_4.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let v11 : BitVec 1 := Scalar.cmpi .eq v10 c0_i32_3
  let v12 : BitVec 32 := Scalar.select v11 arg1 v0
  let c0_i32_4 : BitVec 32 := 0#32
  ![v12.toNat, arg0.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S131072_S8192x16 : S131072.ShapeCasts S8192x16
  inb_S512x2048_S512x128_0_0 : ∀ a, (![0, 0] : Fin 2 → Nat) a + S512x128.size a ≤ S512x2048.size a
  h_S512x128 : 0 < S512x128.numel
  inb_S512x16_S512x1_0_0 : ∀ a, (![0, 0] : Fin 2 → Nat) a + S512x1.size a ≤ S512x16.size a
  h_S512x1 : 0 < S512x1.numel
  shapeCasts_S512x1_S512x1 : S512x1.ShapeCasts S512x1
  reduces_S512x128_S512 : S512x128.Reduces [1] S512
  shapeCasts_S512_S512x1 : S512.ShapeCasts S512x1
  broadcasts_S512x1_S512x128 : S512x1.Broadcasts S512x128
  bitsLt_bf16_f32 : FTy.bits .bf16 < FTy.bits .f32
  packedbf16_S512x2048_S512x128_0_0 : (Rect.unit (s := S512x2048) ![0, 0] S512x128.size inb_S512x2048_S512x128_0_0).PackedRows (EltTy.packing .bf16)
  inb_S512x2048_S512x128_0_128 : ∀ a, (![0, 128] : Fin 2 → Nat) a + S512x128.size a ≤ S512x2048.size a
  inb_S512x16_S512x1_0_1 : ∀ a, (![0, 1] : Fin 2 → Nat) a + S512x1.size a ≤ S512x16.size a
  packedbf16_S512x2048_S512x128_0_128 : (Rect.unit (s := S512x2048) ![0, 128] S512x128.size inb_S512x2048_S512x128_0_128).PackedRows (EltTy.packing .bf16)
  inb_S512x2048_S512x128_0_256 : ∀ a, (![0, 256] : Fin 2 → Nat) a + S512x128.size a ≤ S512x2048.size a
  inb_S512x16_S512x1_0_2 : ∀ a, (![0, 2] : Fin 2 → Nat) a + S512x1.size a ≤ S512x16.size a
  packedbf16_S512x2048_S512x128_0_256 : (Rect.unit (s := S512x2048) ![0, 256] S512x128.size inb_S512x2048_S512x128_0_256).PackedRows (EltTy.packing .bf16)
  inb_S512x2048_S512x128_0_384 : ∀ a, (![0, 384] : Fin 2 → Nat) a + S512x128.size a ≤ S512x2048.size a
  inb_S512x16_S512x1_0_3 : ∀ a, (![0, 3] : Fin 2 → Nat) a + S512x1.size a ≤ S512x16.size a
  packedbf16_S512x2048_S512x128_0_384 : (Rect.unit (s := S512x2048) ![0, 384] S512x128.size inb_S512x2048_S512x128_0_384).PackedRows (EltTy.packing .bf16)
  inb_S512x2048_S512x128_0_512 : ∀ a, (![0, 512] : Fin 2 → Nat) a + S512x128.size a ≤ S512x2048.size a
  inb_S512x16_S512x1_0_4 : ∀ a, (![0, 4] : Fin 2 → Nat) a + S512x1.size a ≤ S512x16.size a
  packedbf16_S512x2048_S512x128_0_512 : (Rect.unit (s := S512x2048) ![0, 512] S512x128.size inb_S512x2048_S512x128_0_512).PackedRows (EltTy.packing .bf16)
  inb_S512x2048_S512x128_0_640 : ∀ a, (![0, 640] : Fin 2 → Nat) a + S512x128.size a ≤ S512x2048.size a
  inb_S512x16_S512x1_0_5 : ∀ a, (![0, 5] : Fin 2 → Nat) a + S512x1.size a ≤ S512x16.size a
  packedbf16_S512x2048_S512x128_0_640 : (Rect.unit (s := S512x2048) ![0, 640] S512x128.size inb_S512x2048_S512x128_0_640).PackedRows (EltTy.packing .bf16)
  inb_S512x2048_S512x128_0_768 : ∀ a, (![0, 768] : Fin 2 → Nat) a + S512x128.size a ≤ S512x2048.size a
  inb_S512x16_S512x1_0_6 : ∀ a, (![0, 6] : Fin 2 → Nat) a + S512x1.size a ≤ S512x16.size a
  packedbf16_S512x2048_S512x128_0_768 : (Rect.unit (s := S512x2048) ![0, 768] S512x128.size inb_S512x2048_S512x128_0_768).PackedRows (EltTy.packing .bf16)
  inb_S512x2048_S512x128_0_896 : ∀ a, (![0, 896] : Fin 2 → Nat) a + S512x128.size a ≤ S512x2048.size a
  inb_S512x16_S512x1_0_7 : ∀ a, (![0, 7] : Fin 2 → Nat) a + S512x1.size a ≤ S512x16.size a
  packedbf16_S512x2048_S512x128_0_896 : (Rect.unit (s := S512x2048) ![0, 896] S512x128.size inb_S512x2048_S512x128_0_896).PackedRows (EltTy.packing .bf16)
  inb_S512x2048_S512x128_0_1024 : ∀ a, (![0, 1024] : Fin 2 → Nat) a + S512x128.size a ≤ S512x2048.size a
  inb_S512x16_S512x1_0_8 : ∀ a, (![0, 8] : Fin 2 → Nat) a + S512x1.size a ≤ S512x16.size a
  packedbf16_S512x2048_S512x128_0_1024 : (Rect.unit (s := S512x2048) ![0, 1024] S512x128.size inb_S512x2048_S512x128_0_1024).PackedRows (EltTy.packing .bf16)
  inb_S512x2048_S512x128_0_1152 : ∀ a, (![0, 1152] : Fin 2 → Nat) a + S512x128.size a ≤ S512x2048.size a
  inb_S512x16_S512x1_0_9 : ∀ a, (![0, 9] : Fin 2 → Nat) a + S512x1.size a ≤ S512x16.size a
  packedbf16_S512x2048_S512x128_0_1152 : (Rect.unit (s := S512x2048) ![0, 1152] S512x128.size inb_S512x2048_S512x128_0_1152).PackedRows (EltTy.packing .bf16)
  inb_S512x2048_S512x128_0_1280 : ∀ a, (![0, 1280] : Fin 2 → Nat) a + S512x128.size a ≤ S512x2048.size a
  inb_S512x16_S512x1_0_10 : ∀ a, (![0, 10] : Fin 2 → Nat) a + S512x1.size a ≤ S512x16.size a
  packedbf16_S512x2048_S512x128_0_1280 : (Rect.unit (s := S512x2048) ![0, 1280] S512x128.size inb_S512x2048_S512x128_0_1280).PackedRows (EltTy.packing .bf16)
  inb_S512x2048_S512x128_0_1408 : ∀ a, (![0, 1408] : Fin 2 → Nat) a + S512x128.size a ≤ S512x2048.size a
  inb_S512x16_S512x1_0_11 : ∀ a, (![0, 11] : Fin 2 → Nat) a + S512x1.size a ≤ S512x16.size a
  packedbf16_S512x2048_S512x128_0_1408 : (Rect.unit (s := S512x2048) ![0, 1408] S512x128.size inb_S512x2048_S512x128_0_1408).PackedRows (EltTy.packing .bf16)
  inb_S512x2048_S512x128_0_1536 : ∀ a, (![0, 1536] : Fin 2 → Nat) a + S512x128.size a ≤ S512x2048.size a
  inb_S512x16_S512x1_0_12 : ∀ a, (![0, 12] : Fin 2 → Nat) a + S512x1.size a ≤ S512x16.size a
  packedbf16_S512x2048_S512x128_0_1536 : (Rect.unit (s := S512x2048) ![0, 1536] S512x128.size inb_S512x2048_S512x128_0_1536).PackedRows (EltTy.packing .bf16)
  inb_S512x2048_S512x128_0_1664 : ∀ a, (![0, 1664] : Fin 2 → Nat) a + S512x128.size a ≤ S512x2048.size a
  inb_S512x16_S512x1_0_13 : ∀ a, (![0, 13] : Fin 2 → Nat) a + S512x1.size a ≤ S512x16.size a
  packedbf16_S512x2048_S512x128_0_1664 : (Rect.unit (s := S512x2048) ![0, 1664] S512x128.size inb_S512x2048_S512x128_0_1664).PackedRows (EltTy.packing .bf16)
  inb_S512x2048_S512x128_0_1792 : ∀ a, (![0, 1792] : Fin 2 → Nat) a + S512x128.size a ≤ S512x2048.size a
  inb_S512x16_S512x1_0_14 : ∀ a, (![0, 14] : Fin 2 → Nat) a + S512x1.size a ≤ S512x16.size a
  packedbf16_S512x2048_S512x128_0_1792 : (Rect.unit (s := S512x2048) ![0, 1792] S512x128.size inb_S512x2048_S512x128_0_1792).PackedRows (EltTy.packing .bf16)
  inb_S512x2048_S512x128_0_1920 : ∀ a, (![0, 1920] : Fin 2 → Nat) a + S512x128.size a ≤ S512x2048.size a
  inb_S512x16_S512x1_0_15 : ∀ a, (![0, 15] : Fin 2 → Nat) a + S512x1.size a ≤ S512x16.size a
  packedbf16_S512x2048_S512x128_0_1920 : (Rect.unit (s := S512x2048) ![0, 1920] S512x128.size inb_S512x2048_S512x128_0_1920).PackedRows (EltTy.packing .bf16)
  shapeCasts_S2x2048x2048_S4096x2048 : S2x2048x2048.ShapeCasts S4096x2048
  shapeCasts_S8192_S1x8192 : S8192.ShapeCasts S1x8192
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S4096x8192_S2x2048x8192 : S4096x8192.ShapeCasts S2x2048x8192
  dot_S512x2048_S2048x2048_S512x2048_1_1_0_0_n_n_wf : DotDims.WF S512x2048 S2048x2048 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x2048.size a
  hwx0_1 : ∀ i : grid0.Coords, EltTy.bits .f32 = 32 ∨ (Rect.block (s := S8192x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x16.size a ≤ S8192x16.size a
  hwx0_2 : ∀ i : grid0.Coords, EltTy.bits .f32 = 32 ∨ (Rect.block (s := S8192x16) S512x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x16.size a ≤ S8192x16.size a
  hwx0_3 : ∀ i : grid0.Coords, EltTy.bits .f32 = 32 ∨ (Rect.block (s := S8192x16) S512x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S8192x2048.size a
  hwx0_4 : ∀ i : grid0.Coords, EltTy.bits .bf16 = 32 ∨ (Rect.block (s := S8192x2048) S512x2048.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S4096x2048.size a
  hwx1_0 : ∀ i : grid1.Coords, EltTy.bits .f32 = 32 ∨ (Rect.block (s := S4096x2048) S512x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S8192x2048.size a
  hwx1_1 : ∀ i : grid1.Coords, EltTy.bits .bf16 = 32 ∨ (Rect.block (s := S8192x2048) S2048x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x8192.size a
  hwx1_2 : ∀ i : grid1.Coords, EltTy.bits .f32 = 32 ∨ (Rect.block (s := S1x8192) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2048.size a ≤ S4096x8192.size a
  hwx1_3 : ∀ i : grid1.Coords, EltTy.bits .f32 = 32 ∨ (Rect.block (s := S4096x8192) S512x2048.size (cc1_transform_3 i) (hinb1_3 i)).WholeWords (EltTy.packing .f32)

variable [Facts₀]

def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf

abbrev win0_0 : Pipeline.Window sig grid0 :=
  Pipeline.Window.ofSpec (Memref.whole main_arg1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v3) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S2048x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S512x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2x2048x2048 : Shape := ⟨3, ![2, 2048, 2048]⟩
abbrev S8192x2048 : Shape := ⟨2, ![8192, 2048]⟩
abbrev S8192 : Shape := ⟨1, ![8192]⟩
abbrev S131072 : Shape := ⟨1, ![131072]⟩
abbrev S_ : Shape := ⟨0, ![]⟩
abbrev S131072x128 : Shape := ⟨2, ![131072, 128]⟩
abbrev S131072x1 : Shape := ⟨2, ![131072, 1]⟩
abbrev S4096x2048 : Shape := ⟨2, ![4096, 2048]⟩
abbrev S2048x8192 : Shape := ⟨2, ![2048, 8192]⟩
abbrev S4096x8192 : Shape := ⟨2, ![4096, 8192]⟩
abbrev S1x8192 : Shape := ⟨2, ![1, 8192]⟩
abbrev S2x2048x8192 : Shape := ⟨3, ![2, 2048, 8192]⟩

abbrev nBuf : Space → Nat
  | .hbm => 102
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S8192x2048, .f32⟩
  | .hbm, ⟨2, _⟩ => ⟨S8192, .f32⟩
  | .hbm, ⟨3, _⟩ => ⟨S8192x2048, .f32⟩
  | .hbm, ⟨4, _⟩ => ⟨S131072, .f32⟩
  | .hbm, ⟨5, _⟩ => ⟨S131072, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S131072, .f32⟩
  | .hbm, ⟨10, _⟩ => ⟨S131072, .f32⟩
  | .hbm, ⟨11, _⟩ => ⟨S_, .f32⟩
  | .hbm, ⟨12, _⟩ => ⟨S131072, .f32⟩
  | .hbm, ⟨13, _⟩ => ⟨S131072, .f32⟩
  | .hbm, ⟨14, _⟩ => ⟨S131072, .f32⟩
  | .hbm, ⟨15, _⟩ => ⟨S131072, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S131072, .f32⟩
  | .hbm, ⟨20, _⟩ => ⟨S131072, .f32⟩
  | .hbm, ⟨21, _⟩ => ⟨S_, .f32⟩
  | .hbm, ⟨22, _⟩ => ⟨S131072, .f32⟩
  | .hbm, ⟨23, _⟩ => ⟨S131072, .f32⟩
  | .hbm, ⟨24, _⟩ => ⟨S131072, .f32⟩
  | .hbm, ⟨25, _⟩ => ⟨S131072, .f32⟩
  | .hbm, ⟨26, _⟩ => ⟨S131072x128, .f32⟩
  | .hbm, ⟨27, _⟩ => ⟨S131072x128, .f32⟩
  | .hbm, ⟨28, _⟩ => ⟨S_, .f32⟩
  | .hbm, ⟨29, _⟩ => ⟨S131072, .f32⟩
  | .hbm, ⟨30, _⟩ => ⟨S_, .f32⟩
  | .hbm, ⟨31, _⟩ => ⟨S131072, .f32⟩
  | .hbm, ⟨32, _⟩ => ⟨S131072, .f32⟩
  | .hbm, ⟨33, _⟩ => ⟨S_, .f32⟩
  | .hbm, ⟨34, _⟩ => ⟨S131072, .f32⟩
  | .hbm, ⟨35, _⟩ => ⟨S_, .f32⟩
  | .hbm, ⟨36, _⟩ => ⟨S131072, .f32⟩
  | .hbm, ⟨37, _⟩ => ⟨S131072, .f32⟩
  | .hbm, ⟨38, _⟩ => ⟨S_, .f32⟩
  | .hbm, ⟨39, _⟩ => ⟨S131072, .f32⟩
  | .hbm, ⟨40, _⟩ => ⟨S131072, .f32⟩
  | .hbm, ⟨41, _⟩ => ⟨S131072, .f32⟩
  | .hbm, ⟨42, _⟩ => ⟨S_, .f32⟩
  | .hbm, ⟨43, _⟩ => ⟨S131072, .f32⟩
  | .hbm, ⟨44, _⟩ => ⟨S131072, .f32⟩
  | .hbm, ⟨45, _⟩ => ⟨S131072, .f32⟩
  | .hbm, ⟨46, _⟩ => ⟨S_, .f32⟩
  | .hbm, ⟨47, _⟩ => ⟨S131072, .f32⟩
  | .hbm, ⟨48, _⟩ => ⟨S131072, .i1⟩
  | .hbm, ⟨49, _⟩ => ⟨S_, .f32⟩
  | .hbm, ⟨50, _⟩ => ⟨S131072, .f32⟩
  | .hbm, ⟨51, _⟩ => ⟨S131072, .i1⟩
  | .hbm, ⟨52, _⟩ => ⟨S131072, .i1⟩
  | .hbm, ⟨53, _⟩ => ⟨S_, .f32⟩
  | .hbm, ⟨54, _⟩ => ⟨S_, .f32⟩
  | .hbm, ⟨55, _⟩ => ⟨S131072, .f32⟩
  | .hbm, ⟨56, _⟩ => ⟨S131072, .f32⟩
  | .hbm, ⟨57, _⟩ => ⟨S_, .f32⟩
  | .hbm, ⟨58, _⟩ => ⟨S_, .f32⟩
  | .hbm, ⟨59, _⟩ => ⟨S131072, .f32⟩
  | .hbm, ⟨60, _⟩ => ⟨S131072, .f32⟩
  | .hbm, ⟨61, _⟩ => ⟨S131072, .f32⟩
  | .hbm, ⟨62, _⟩ => ⟨S_, .f32⟩
  | .hbm, ⟨63, _⟩ => ⟨S131072, .f32⟩
  | .hbm, ⟨64, _⟩ => ⟨S131072, .f32⟩
  | .hbm, ⟨65, _⟩ => ⟨S131072, .f32⟩
  | .hbm, ⟨66, _⟩ => ⟨S131072, .f32⟩
  | .hbm, ⟨67, _⟩ => ⟨S131072, .f32⟩
  | .hbm, ⟨68, _⟩ => ⟨S131072, .f32⟩
  | .hbm, ⟨69, _⟩ => ⟨S131072, .f32⟩
  | .hbm, ⟨70, _⟩ => ⟨S131072x1, .f32⟩
  | .hbm, ⟨71, _⟩ => ⟨S131072x128, .f32⟩
  | .hbm, ⟨72, _⟩ => ⟨S131072x128, .f32⟩
  | .hbm, ⟨73, _⟩ => ⟨S131072x128, .f32⟩
  | .hbm, ⟨74, _⟩ => ⟨S131072x128, .f32⟩
  | .hbm, ⟨75, _⟩ => ⟨S131072x128, .f32⟩
  | .hbm, ⟨76, _⟩ => ⟨S131072x128, .f32⟩
  | .hbm, ⟨77, _⟩ => ⟨S131072x1, .f32⟩
  | .hbm, ⟨78, _⟩ => ⟨S131072x128, .f32⟩
  | .hbm, ⟨79, _⟩ => ⟨S131072x128, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S131072x128, .f32⟩
  | .hbm, ⟨84, _⟩ => ⟨S131072x128, .f32⟩
  | .hbm, ⟨85, _⟩ => ⟨S_, .f32⟩
  | .hbm, ⟨86, _⟩ => ⟨S131072x128, .f32⟩
  | .hbm, ⟨87, _⟩ => ⟨S131072x128, .f32⟩
  | .hbm, ⟨88, _⟩ => ⟨S131072x1, .f32⟩
  | .hbm, ⟨89, _⟩ => ⟨S131072x1, .f32⟩
  | .hbm, ⟨90, _⟩ => ⟨S131072x128, .f32⟩
  | .hbm, ⟨91, _⟩ => ⟨S131072x128, .f32⟩
  | .hbm, ⟨92, _⟩ => ⟨S131072x128, .f32⟩
  | .hbm, ⟨93, _⟩ => ⟨S131072x128, .f32⟩
  | .hbm, ⟨94, _⟩ => ⟨S8192x2048, .f32⟩
  | .hbm, ⟨95, _⟩ => ⟨S4096x2048, .f32⟩
  | .hbm, ⟨96, _⟩ => ⟨S2048x8192, .f32⟩
  | .hbm, ⟨97, _⟩ => ⟨S4096x8192, .f32⟩
  | .hbm, ⟨98, _⟩ => ⟨S1x8192, .f32⟩
  | .hbm, ⟨99, _⟩ => ⟨S4096x8192, .f32⟩
  | .hbm, ⟨100, _⟩ => ⟨S4096x8192, .f32⟩
  | .hbm, ⟨101, _⟩ => ⟨S2x2048x8192, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst_1 : Ref sig .tc := ⟨.hbm, 16, rfl⟩
abbrev main_cst_2 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_3 : Ref sig .tc := ⟨.hbm, 28, rfl⟩
abbrev main_v8 : Ref sig .tc := ⟨.hbm, 29, rfl⟩
abbrev main_cst_4 : Ref sig .tc := ⟨.hbm, 30, rfl⟩
abbrev main_v9 : Ref sig .tc := ⟨.hbm, 31, rfl⟩
abbrev main_v10 : Ref sig .tc := ⟨.hbm, 32, rfl⟩
abbrev main_cst_5 : Ref sig .tc := ⟨.hbm, 33, rfl⟩
abbrev main_v11 : Ref sig .tc := ⟨.hbm, 34, rfl⟩
abbrev main_cst_6 : Ref sig .tc := ⟨.hbm, 35, rfl⟩
abbrev main_v12 : Ref sig .tc := ⟨.hbm, 36, rfl⟩
abbrev main_v13 : Ref sig .tc := ⟨.hbm, 37, rfl⟩
abbrev main_cst_7 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_cst_8 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_cst_9 : Ref sig .tc := ⟨.hbm, 46, rfl⟩
abbrev main_v20 : Ref sig .tc := ⟨.hbm, 47, rfl⟩
abbrev main_v21 : Ref sig .tc := ⟨.hbm, 48, rfl⟩
abbrev main_cst_10 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_cst_11 : Ref sig .tc := ⟨.hbm, 53, rfl⟩
abbrev main_call2_v0 : Ref sig .tc := ⟨.hbm, 54, rfl⟩
abbrev main_call2_v1 : Ref sig .tc := ⟨.hbm, 55, rfl⟩
abbrev main_v25 : Ref sig .tc := ⟨.hbm, 56, rfl⟩
abbrev main_cst_12 : Ref sig .tc := ⟨.hbm, 57, rfl⟩
abbrev main_call3_v0 : Ref sig .tc := ⟨.hbm, 58, rfl⟩
abbrev main_call3_v1 : Ref sig .tc := ⟨.hbm, 59, rfl⟩
abbrev main_v26 : Ref sig .tc := ⟨.hbm, 60, rfl⟩
abbrev main_v27 : Ref sig .tc := ⟨.hbm, 61, rfl⟩
abbrev main_cst_13 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_cst_14 : Ref sig .tc := ⟨.hbm, 80, rfl⟩
abbrev main_cst_15 : Ref sig .tc := ⟨.hbm, 81, rfl⟩
abbrev main_call6_v0 : Ref sig .tc := ⟨.hbm, 82, rfl⟩
abbrev main_call6_v1 : Ref sig .tc := ⟨.hbm, 83, rfl⟩
abbrev main_call6_v2 : Ref sig .tc := ⟨.hbm, 84, rfl⟩
abbrev main_call6_v3 : Ref sig .tc := ⟨.hbm, 85, rfl⟩
abbrev main_call6_v4 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩

abbrev nD : Nat := 1
abbrev τ : Topo := Topo.v7x

variable {F : FTy → Type} [FloatOps F]

class Facts₀ : Prop where
  bcast_S_S131072 : S_.BroadcastsInDim S131072 (![] : Fin 0 → Fin S131072.rank)
  shapeCasts_S8192x2048_S131072x128 : S8192x2048.ShapeCasts S131072x128
  reducesTo_S131072x128_S131072_d1 : S131072x128.ReducesTo [1] S131072
  h_S_ : 0 < S_.numel
  bcast_S131072_S131072x1_0 : S131072.BroadcastsInDim S131072x1 (![0] : Fin 1 → Fin S131072x1.rank)
  bcast_S131072x1_S131072x128_0_1 : S131072x1.BroadcastsInDim S131072x128 (![0, 1] : Fin 2 → Fin S131072x128.rank)
  bcast_S_S131072x128 : S_.BroadcastsInDim S131072x128 (![] : Fin 0 → Fin S131072x128.rank)
  shapeCasts_S131072x128_S8192x2048 : S131072x128.ShapeCasts S8192x2048
  shapeCasts_S2x2048x2048_S4096x2048 : S2x2048x2048.ShapeCasts S4096x2048
  transposes_S8192x2048_S2048x8192_1_0 : S8192x2048.Transposes [1, 0] S2048x8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  shapeCasts_S4096x8192_S2x2048x8192 : S4096x8192.ShapeCasts S2x2048x8192
  dot_S4096x2048_S2048x8192_S4096x8192_1_0_0_1_n_n_wf : DotDims.WF S4096x2048 S2048x8192 S4096x8192 [1] [0] [0] [1] [] []

variable [Facts₀]

def dot_S4096x2048_S2048x8192_S4096x8192_1_0_0_1_n_n : DotDims S4096x2048 S2048x8192 S4096x8192 where
  lhsContracting := [1]
  rhsContracting := [0]
  lhsNonContracting := [0]
  rhsNonContracting := [1]
  lhsBatch := []
  rhsBatch := []
  wf := dot_S4096x2048_S2048x8192_S4096x8192_1_0_0_1_n_n_wf

class Facts : Prop extends Facts₀ where

variable [Facts]
-- ==== Proof.KernelRun.lean ====
/-
  The idealized kernel program's run, with the result buffer's final contents kept.

  @main is five segments: two host reshapes, the quantizing kernel's region, two host reshapes, the matrix-product
  kernel's region, one host reshape. The library's composition theorem for a list of segments runs them in order: each
  segment is entered from the buffer contents the previous one left, and after the last one every buffer that outlives
  a region holds the last boundary's contents — the fold `W5` of the five segments over the launch memory. Read at the
  result buffer this is the program's value; read at an argument it is the launch contents, since no segment writes an
  argument.
-/
import proofs.«117316_j10024453669436_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the six argument arrays as launched. -/
theorem run_result : θ_run defs (onTc (τ := τ) (main (F := F))) ⟨m, fun _ => 0, ρ⟩ (fun r => ∀ c : Dev nD,
      r.2.mem ((c.tc : Thread nD τ).loc main_v6) = W5 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v6 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.KRun

end
-- ==== Proof.Boundaries.lean ====
/-
  The buffer contents at the segment boundaries of the idealized kernel program, read back to the launch memory.

  The program is five segments: two reshapes, the quantizing region, two reshapes, the matrix-product region, one
  reshape. A stretch of reshapes rewrites its result buffers — each to the operand's elements at the result's shape —
  and leaves every other buffer; a region rewrites its arrays and leaves every other buffer. Walking the fold of the
  segments back from a boundary:
    * at the quantizing region's entry the weights and the rounding offsets are the launch contents (nothing before
      writes them) and the two range-factor arrays are the launch vectors of 131072 factors at the shape [8192, 16];
    * at the matrix-product region's entry the activations are the launch array at the shape [4096, 2048], the bias
      the launch vector at the shape [1, 8192] (neither the first stretch nor the first region writes an argument),
      and the weights are what the quantizing region's write-backs left in its output array;
    * the result is what the matrix-product region's write-backs left in its output array, at the shape
      [2, 2048, 8192].
-/
import proofs.«117316_j10024453669436_2_alg».proof.Proof.Gen.KernelIdeal.Frame
import Idealize.ShloMosaic.Lib.StableHlo.Run

set_option maxRecDepth 16384

noncomputable section

namespace Cert.KernelIdeal.Boundaries

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## One stretch of reshapes over any contents -/

section Stretches
variable (X : Valuation τ sig (Elt F))

/-- The first stretch leaves every buffer but its two results. -/
theorem after0_of_ne (b : Ref sig .tc) (h0 : b ≠ main_v0) (h1 : b ≠ main_v1) :
    StableHlo.after (hostOps0 (F := F)) X (Proc.devRef .tc b) = X (Proc.devRef .tc b) := by
  simp only [StableHlo.after_cons, StableHlo.after_nil]
  rw [StableHlo.reshape_result_ne _ _ _ _ _ _ _ h1, StableHlo.reshape_result_ne _ _ _ _ _ _ _ h0]

/-- Its first result: the lower range factors at the shape [8192, 16]. -/
theorem after0_v0 : StableHlo.after (hostOps0 (F := F)) X (Proc.devRef .tc main_v0)
    = shapeCast S8192x16 (X (Proc.devRef .tc main_arg4)) shapeCasts_S131072_S8192x16 := by
  after_results
  rfl

/-- Its second result: the upper range factors at the shape [8192, 16]. -/
theorem after0_v1 : StableHlo.after (hostOps0 (F := F)) X (Proc.devRef .tc main_v1)
    = shapeCast S8192x16 (X (Proc.devRef .tc main_arg5)) shapeCasts_S131072_S8192x16 := by
  after_results
  rfl

/-- The second stretch leaves every buffer but its two results. -/
theorem after1_of_ne (b : Ref sig .tc) (h3 : b ≠ main_v3) (h4 : b ≠ main_v4) :
    StableHlo.after (hostOps1 (F := F)) X (Proc.devRef .tc b) = X (Proc.devRef .tc b) := by
  simp only [StableHlo.after_cons, StableHlo.after_nil]
  rw [StableHlo.reshape_result_ne _ _ _ _ _ _ _ h4, StableHlo.reshape_result_ne _ _ _ _ _ _ _ h3]

/-- Its first result: the activations at the shape [4096, 2048]. -/
theorem after1_v3 : StableHlo.after (hostOps1 (F := F)) X (Proc.devRef .tc main_v3)
    = shapeCast S4096x2048 (X (Proc.devRef .tc main_arg0)) shapeCasts_S2x2048x2048_S4096x2048 := by
  after_results
  rfl

/-- Its second result: the bias at the shape [1, 8192]. -/
theorem after1_v4 : StableHlo.after (hostOps1 (F := F)) X (Proc.devRef .tc main_v4)
    = shapeCast S1x8192 (X (Proc.devRef .tc main_arg2)) shapeCasts_S8192_S1x8192 := by
  after_results
  rfl

/-- The last stretch's result: the matrix product at the shape [2, 2048, 8192]. -/
theorem after2_v6 : StableHlo.after (hostOps2 (F := F)) X (Proc.devRef .tc main_v6)
    = shapeCast S2x2048x8192 (X (Proc.devRef .tc main_v5)) shapeCasts_S4096x8192_S2x2048x8192 := by
  after_results
  rfl

end Stretches

variable (m : (ℓ : Loc nD τ sig) → Buf (Elt F) ℓ) (ρ : Dev nD → PrngReg) (c : Dev nD)

/-! ## The quantizing region's entry -/

theorem entry0_weights : V1 m ρ c main_arg1 = m ((c.tc : Thread nD τ).loc main_arg1) :=
  after0_of_ne (W0 m ρ c) main_arg1 (by decide) (by decide)

theorem entry0_offsets : V1 m ρ c main_arg3 = m ((c.tc : Thread nD τ).loc main_arg3) :=
  after0_of_ne (W0 m ρ c) main_arg3 (by decide) (by decide)

theorem entry0_minFactors : V1 m ρ c main_v0 = shapeCast S8192x16 (m ((c.tc : Thread nD τ).loc main_arg4)) shapeCasts_S131072_S8192x16 :=
  after0_v0 (W0 m ρ c)

theorem entry0_maxFactors : V1 m ρ c main_v1 = shapeCast S8192x16 (m ((c.tc : Thread nD τ).loc main_arg5)) shapeCasts_S131072_S8192x16 :=
  after0_v1 (W0 m ρ c)

/-! ## The matrix-product region's entry -/

/-- The activations' argument array is as launched when the quantizing region exits. -/
theorem W2_arg0 : W2 m ρ c (Proc.devRef .tc main_arg0) = m ((c.tc : Thread nD τ).loc main_arg0) :=
  (W2_of_ne m ρ c main_arg0 (by decide)).trans (after0_of_ne (W0 m ρ c) main_arg0 (by decide) (by decide))

/-- The bias's argument array is as launched when the quantizing region exits. -/
theorem W2_arg2 : W2 m ρ c (Proc.devRef .tc main_arg2) = m ((c.tc : Thread nD τ).loc main_arg2) :=
  (W2_of_ne m ρ c main_arg2 (by decide)).trans (after0_of_ne (W0 m ρ c) main_arg2 (by decide) (by decide))

theorem entry1_activations : V3 m ρ c main_v3 = shapeCast S4096x2048 (m ((c.tc : Thread nD τ).loc main_arg0)) shapeCasts_S2x2048x2048_S4096x2048 :=
  (after1_v3 (W2 m ρ c)).trans (congrArg (fun x => shapeCast S4096x2048 x shapeCasts_S2x2048x2048_S4096x2048) (W2_arg0 m ρ c))

theorem entry1_bias : V3 m ρ c main_v4 = shapeCast S1x8192 (m ((c.tc : Thread nD τ).loc main_arg2)) shapeCasts_S8192_S1x8192 :=
  (after1_v4 (W2 m ρ c)).trans (congrArg (fun x => shapeCast S1x8192 x shapeCasts_S8192_S1x8192) (W2_arg2 m ρ c))

theorem entry1_weights : V3 m ρ c main_v2 = (dat0 (V1 m ρ) c).arrAt 4 cfg0.N :=
  (after1_of_ne (W2 m ρ c) main_v2 (by decide) (by decide)).trans (W2_arr m ρ c 4)

/-! ## The result -/

theorem result_eq : W5 m ρ c (Proc.devRef .tc main_v6) = shapeCast S2x2048x8192 ((dat1 (V3 m ρ) c).arrAt 3 cfg1.N) shapeCasts_S4096x8192_S2x2048x8192 :=
  (after2_v6 (W4 m ρ c)).trans (congrArg (fun x => shapeCast S2x2048x8192 x shapeCasts_S4096x8192_S2x2048x8192) (W4_arr m ρ c 3))

end Cert.KernelIdeal.Boundaries

end
-- ==== Proof.Spec.lean ====
/-
  Groupwise asymmetric fake quantization of a weight matrix followed by a linear layer, entry by entry on the
  extended reals.

  A weight matrix `W : [8192, 2048]` is cut along its rows into groups of 128 consecutive columns; group `g` of row
  `r` has its own pair of learnt range factors `MN, MX : [131072]` at position `16 r + g`. For one group, with
  `row` its 128 weights:
    lower end   a = min (min row) 0 · (clamp₍₋₁,₀₎ mn + 1)      upper end   b = max (max row) 0 · (clamp₍₋₁,₀₎ mx + 1)
    (a, b) is replaced by (−1, 1) when both are 0
    step        s = (b − a) / 15                                 zero point  z = round (−a / s)
    a weight w with its rounding offset v becomes   s · (clamp₍0,15₎ (round (w / s + v) + z) − z),
  rounding to nearest, ties to even. The linear layer is `out (p, q) = ∑ k, X (p, k) · Wq (q, k) + B q`.

  Two spellings of the same numbers are stated here. `qK` / `outK` compute the clamp and the roundings directly
  and negate as `0 − a`. `qR` / `outR` write every clamp and rounding in the straight-through form
  `x + (f x − x)`, negate as `−a`, and add the bias on the left. On the extended reals `x + (f x − x) = f x` holds
  when `x` is a real number and fails at the infinities, so the two spellings agree for finite data (SpecLaw).
-/
import Idealize.ShloMosaic.PureOps.Ideal
import Idealize.ShloMosaic.Lib.ValueIdx

noncomputable section

open scoped BigOperators

namespace FakeQuant

open Idealize.ShloMosaic Idealize.ShloMosaic.ValueIdx

/-- Clamp to the interval [−1, 0]. -/
def clipUnit (x : EReal) : EReal := min 0 (max (-1) x)

/-- Round to the nearest integer, ties to even; the infinities are fixed. -/
def rnd (x : EReal) : EReal := Ideal.liftRound Ideal.roundHalfEven x

/-- The straight-through spelling of `f x`: `x` plus the correction `f x − x`. -/
def ste (f : EReal → EReal) (x : EReal) : EReal := x + (f x - x)

/-- The group's lower end before the degenerate case is replaced: the row minimum capped at 0, shrunk by `ms + 1`. -/
def groupLo (row : Fin 128 → EReal) (ms : EReal) : EReal :=
  min ((Finset.univ : Finset (Fin 128)).fold min ⊤ row) 0 * (ms + 1)

/-- The group's upper end before the degenerate case is replaced: the row maximum floored at 0, shrunk by `xs + 1`. -/
def groupHi (row : Fin 128 → EReal) (xs : EReal) : EReal :=
  max ((Finset.univ : Finset (Fin 128)).fold max ⊥ row) 0 * (xs + 1)

/-- The lower end used: −1 when both ends are 0. -/
def lo (a b : EReal) : EReal := if a = 0 ∧ b = 0 then -1 else a

/-- The upper end used: 1 when both ends are 0. -/
def hi (a b : EReal) : EReal := if a = 0 ∧ b = 0 then 1 else b

/-- The quantization step: the used range divided into 15 parts. -/
def step (a b : EReal) : EReal := Ideal.div (hi a b - lo a b) 15

/-- Quantize to the 16 levels around the zero point `zp` and map back: `s · (clamp₍0,15₎ (iw + zp) − zp)`. -/
def dequant (s zp iw : EReal) : EReal := s * (min 15 (max 0 (iw + zp)) - zp)

/-- One fake-quantized weight, direct spelling. -/
def qK (row : Fin 128 → EReal) (w v mn mx : EReal) : EReal :=
  dequant (step (groupLo row (clipUnit mn)) (groupHi row (clipUnit mx)))
    (rnd (Ideal.div (0 - lo (groupLo row (clipUnit mn)) (groupHi row (clipUnit mx)))
      (step (groupLo row (clipUnit mn)) (groupHi row (clipUnit mx)))))
    (rnd (Ideal.div w (step (groupLo row (clipUnit mn)) (groupHi row (clipUnit mx))) + v))

/-- One fake-quantized weight, straight-through spelling. -/
def qR (row : Fin 128 → EReal) (w v mn mx : EReal) : EReal :=
  dequant (step (groupLo row (ste clipUnit mn)) (groupHi row (ste clipUnit mx)))
    (ste rnd (Ideal.div (-(lo (groupLo row (ste clipUnit mn)) (groupHi row (ste clipUnit mx))))
      (step (groupLo row (ste clipUnit mn)) (groupHi row (ste clipUnit mx)))))
    (ste rnd (Ideal.div w (step (groupLo row (ste clipUnit mn)) (groupHi row (ste clipUnit mx))) + v))

/-- Column `k` of the group that column `c` lies in. -/
def col (c : Fin 2048) (k : Fin 128) : Fin 2048 := ⟨128 * (c.val / 128) + k.val, by omega⟩

/-- The position of row `r`'s group containing column `c` among all 131072 groups. -/
def grp (r : Fin 8192) (c : Fin 2048) : Fin 131072 := ⟨16 * r.val + c.val / 128, by omega⟩

/-- The fake-quantized weight matrix at `(r, c)`, direct spelling. -/
def wqK (W V : (⟨2, ![8192, 2048]⟩ : Shape).Idx → EReal) (MN MX : (⟨1, ![131072]⟩ : Shape).Idx → EReal)
    (r : Fin 8192) (c : Fin 2048) : EReal :=
  qK (fun k => W (ix2 r (col c k))) (W (ix2 r c)) (V (ix2 r c)) (MN (ix1 (grp r c))) (MX (ix1 (grp r c)))

/-- The fake-quantized weight matrix at `(r, c)`, straight-through spelling. -/
def wqR (W V : (⟨2, ![8192, 2048]⟩ : Shape).Idx → EReal) (MN MX : (⟨1, ![131072]⟩ : Shape).Idx → EReal)
    (r : Fin 8192) (c : Fin 2048) : EReal :=
  qR (fun k => W (ix2 r (col c k))) (W (ix2 r c)) (V (ix2 r c)) (MN (ix1 (grp r c))) (MX (ix1 (grp r c)))

/-- The linear layer at `(p, q)`: row `p` of `X` against row `q` of the quantized weights, plus the bias. -/
def outK (X : (⟨2, ![4096, 2048]⟩ : Shape).Idx → EReal) (B : (⟨1, ![8192]⟩ : Shape).Idx → EReal)
    (W V : (⟨2, ![8192, 2048]⟩ : Shape).Idx → EReal) (MN MX : (⟨1, ![131072]⟩ : Shape).Idx → EReal)
    (p : Fin 4096) (q : Fin 8192) : EReal :=
  (∑ k : Fin 2048, X (ix2 p k) * wqK W V MN MX q k) + B (ix1 q)

/-- The same layer with the bias added on the left and the weights in the straight-through spelling. -/
def outR (X : (⟨2, ![4096, 2048]⟩ : Shape).Idx → EReal) (B : (⟨1, ![8192]⟩ : Shape).Idx → EReal)
    (W V : (⟨2, ![8192, 2048]⟩ : Shape).Idx → EReal) (MN MX : (⟨1, ![131072]⟩ : Shape).Idx → EReal)
    (p : Fin 4096) (q : Fin 8192) : EReal :=
  B (ix1 q) + ∑ k : Fin 2048, X (ix2 p k) * wqR W V MN MX q k

end FakeQuant

end
-- ==== Proof.LibRowOps.lean ====
/-
  Row-wise reductions of an `[a, b]` vector and the keepdims column forms, read at an index.

  A kernel body that normalises each row (a softmax, a log-softmax, a layer norm) reduces its `[a, b]` block along
  axis 1 into `[a]`, recasts that to the column `[a, 1]` and broadcasts the column back over `[a, b]`. On the
  extended reals: the `maximumf` reduction at row `r` is the fold of `max` from `⊥` over the row's `b` entries
  (its accumulator pattern is `-∞`), the `add` reduction is the row's sum, the cast reads `(r, 0) ↦ r`, and the
  broadcast reads `(r, c) ↦ (r, 0)`. The host's one-axis `reduce` with a `maximum` body is the same fold from its
  initial value.
-/
import Idealize.ShloMosaic.PureOps.Ideal.Laws
import Idealize.ShloMosaic.Lib.ValueIdx
import Idealize.ShloMosaic.Lib.Pipeline.Value

namespace Gcn.Lib

open Idealize.ShloMosaic Idealize.ShloMosaic.ValueIdx

variable {a b : ℕ}

/-- The f32 pattern of `-∞` denotes `⊥`. -/
theorem ofBits_neg_inf_f32 : Ideal.ofBits .f32 0xFF800000#32 = ⊥ := by simp [Ideal.ofBits, Ideal.ieee]

/-- Row `r` with the column coordinate `k` put back is the entry `(r, k)`. -/
theorem lift_row (h : Shape.Reduces ⟨2, ![a, b]⟩ [1] ⟨1, ![a]⟩) (r : Fin a) (k : Fin b) :
    h.lift (ix1 r) k = ix2 r k := by
  funext d
  apply Fin.ext
  match d with
  | ⟨0, h0⟩ =>
    show h.liftVal (ix1 r) k.val ⟨0, h0⟩ = r.val
    unfold Shape.Reduces.liftVal
    split
    · next hc => exact absurd hc Nat.zero_ne_one
    · split
      · rfl
      · next hlt => exact absurd Nat.zero_lt_one hlt
  | ⟨1, h1⟩ =>
    show h.liftVal (ix1 r) k.val ⟨1, h1⟩ = k.val
    unfold Shape.Reduces.liftVal
    split
    · rfl
    · next hc => exact absurd rfl hc

/-- A kernel's `multi_reduction <maximumf>` along axis 1 from the `-∞` accumulator, at row `r`: the fold of `max`
    from `⊥` over the row. -/
theorem rowMax_apply (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max ⊥ (fun k => v (ix2 r k)) := by
  refine (Ideal.multiReduction_maximumf_single v 0xFF800000#32 h hφ hacc (ix1 r)).trans ?_
  show (Finset.univ : Finset (Fin b)).fold max (Ideal.ofBits .f32 0xFF800000#32) (v ∘ h.lift (ix1 r)) = _
  rw [ofBits_neg_inf_f32]
  exact congrArg (fun f => (Finset.univ : Finset (Fin b)).fold max ⊥ f) (funext fun k => congrArg v (lift_row h r k))

/-- A kernel's `multi_reduction <add>` along axis 1, at row `r`: the row's sum. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  exact Finset.sum_congr rfl fun k _ => congrArg v (lift_row h r k)

/-- The host's one-axis `reduce` with a `maximum` body along axis 1, at row `r`: the fold of `max` from the
    initial value over the row. -/
theorem hostRowMax_apply {u : Shape} (x : (⟨2, ![a, b]⟩ : Shape).Idx → EReal) (init : u.Idx → EReal)
    (h' : Shape.ReducesTo ⟨2, ![a, b]⟩ [1] ⟨1, ![a]⟩) (h : Shape.Reduces ⟨2, ![a, b]⟩ [1] ⟨1, ![a]⟩) (hu : 0 < u.numel)
    (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  show (Finset.univ : Finset (Fin b)).fold max (init (Shape.Idx.first hu)) (x ∘ h.lift (ix1 r)) = _
  exact congrArg (fun f => (Finset.univ : Finset (Fin b)).fold max (init (Shape.Idx.first hu)) f)
    (funext fun k => congrArg x (lift_row h r k))

/-- An `[a]` vector cast to the column `[a, 1]` reads, at `(r, u)`, the operand at `r`. -/
theorem shapeCast_a_a1_apply {α : Type} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {α : Type} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Gcn.Lib
-- ==== Proof.LibRowMin.lean ====
/-
  Row-wise minimum of an `[a, b]` vector, read at a row.

  The companion of the row maximum: a kernel's `multi_reduction <minimumf>` along axis 1 has the accumulator pattern
  `+∞`, so on the extended reals its value at row `r` is the fold of `min` from `⊤` over the row's `b` entries; the
  host's one-axis `reduce` with a `minimum` body is the same fold from its initial value. The order of the fold does
  not matter: `min` is commutative and associative.
-/
import proofs.«117316_j10024453669436_2_alg».proof.Proof.LibRowOps

namespace RowMin

open Idealize.ShloMosaic Idealize.ShloMosaic.ValueIdx

variable {a b : ℕ}

/-- The f32 pattern of `+∞` denotes `⊤`. -/
theorem ofBits_pos_inf_f32 : Ideal.ofBits .f32 0x7F800000#32 = ⊤ := by simp [Ideal.ofBits, Ideal.ieee]

/-- A kernel's `multi_reduction <minimumf>` along axis 1 from the `+∞` accumulator, at row `r`: the fold of `min`
    from `⊤` over the row. -/
theorem rowMin_apply (v : FVec Ideal ⟨2, ![a, b]⟩ .f32) (h : Shape.Reduces ⟨2, ![a, b]⟩ [1] ⟨1, ![a]⟩)
    (hφ : FKind.Formats .f32) (hacc : (0x7F800000#32 : BitVec 32) = FKind.minimumf.neutral .f32 hφ) (r : Fin a) :
    multiReduction .minimumf [1] ⟨1, ![a]⟩ v 0x7F800000#32 h hφ hacc (ix1 r)
      = (Finset.univ : Finset (Fin b)).fold min ⊤ (fun k => v (ix2 r k)) := by
  refine (multiReduction_minimumf_eq_fold v 0x7F800000#32 h hφ hacc (ix1 r)).trans ?_
  refine (h.fold_filter_drop_single _ _ v (ix1 r)).trans ?_
  show (Finset.univ : Finset (Fin b)).fold min (Ideal.ofBits .f32 0x7F800000#32) (v ∘ h.lift (ix1 r)) = _
  rw [ofBits_pos_inf_f32]
  exact congrArg (fun f => (Finset.univ : Finset (Fin b)).fold min ⊤ f)
    (funext fun k => congrArg v (Gcn.Lib.lift_row h r k))

/-- The host's one-axis `reduce` with a `minimum` body along axis 1, at row `r`: the fold of `min` from the initial
    value over the row. -/
theorem hostRowMin_apply {u : Shape} (x : (⟨2, ![a, b]⟩ : Shape).Idx → EReal) (init : u.Idx → EReal)
    (h' : Shape.ReducesTo ⟨2, ![a, b]⟩ [1] ⟨1, ![a]⟩) (h : Shape.Reduces ⟨2, ![a, b]⟩ [1] ⟨1, ![a]⟩) (hu : 0 < u.numel)
    (r : Fin a) :
    Host.reduce (FloatOps.minimumf (F := Ideal) (φ := .f32)) x init h' hu (ix1 r)
      = (Finset.univ : Finset (Fin b)).fold min (init (Shape.Idx.first hu)) (fun k => x (ix2 r k)) := by
  refine (Host.reduce_eq_fold_single (FloatOps.minimumf (F := Ideal) (φ := .f32)) x init h' h hu (ix1 r)).trans ?_
  show (Finset.univ : Finset (Fin b)).fold min (init (Shape.Idx.first hu)) (x ∘ h.lift (ix1 r)) = _
  exact congrArg (fun f => (Finset.univ : Finset (Fin b)).fold min (init (Shape.Idx.first hu)) f)
    (funext fun k => congrArg x (Gcn.Lib.lift_row h r k))

end RowMin
-- ==== Proof.QuantEntry.lean ====
/-
  One group of the quantizing kernel's body, read at an entry.

  The body handles a `[512, 2048]` block of weights in 16 groups of 128 columns; every group is the same chain of
  vector operations on four loads: the group's weights `w` and rounding offsets `v` (`[512, 128]`) and its two columns
  of range factors `mn`, `mx` (`[512, 1]`). Row `p` of the chain depends only on row `p` of the loads: the row minimum
  and maximum of `w` give the two ends, the columns shrink them, the step and the zero point follow, and entry `(p, j)`
  is the fake-quantized weight `FakeQuant.qK` of row `p` of `w` at `w (p, j)`, `v (p, j)`, `mn (p, 0)`, `mx (p, 0)`.
-/
import proofs.«117316_j10024453669436_2_alg».proof.Proof.Gen.KernelIdeal.Skeleton
import proofs.«117316_j10024453669436_2_alg».proof.Proof.Spec
import proofs.«117316_j10024453669436_2_alg».proof.Proof.LibRowMin
import Idealize.ShloMosaic.Lib.Pipeline.Value

noncomputable section

namespace Cert.KernelIdeal.QuantEntry

open Cert.KernelIdeal Cert.KernelIdeal.Gen Idealize.ShloMosaic Idealize.ShloMosaic.ValueIdx

/-- The f32 word of −1. -/
theorem word_neg_one : Ideal.ofBits .f32 0xBF800000#32 = -1 := by
  simp [Ideal.ofBits, Ideal.ieee, -EReal.coe_mul]; norm_num
/-- The f32 word of 1. -/
theorem word_one : Ideal.ofBits .f32 0x3F800000#32 = 1 := by
  simp [Ideal.ofBits, Ideal.ieee, -EReal.coe_mul]; norm_num
/-- The f32 word of 15. -/
theorem word_fifteen : Ideal.ofBits .f32 0x41700000#32 = 15 := by
  simp [Ideal.ofBits, Ideal.ieee, -EReal.coe_mul]; norm_num
  first | rfl | norm_cast

/-- A select on "both are zero", the two tests and-ed as one-bit words, is the `if`. -/
theorem select_both_zero {α : Type} (a b : EReal) (x y : α) :
    Scalar.select (IntOp.andi (Ideal.cmp .oeq a 0) (Ideal.cmp .oeq b 0)) x y = if a = 0 ∧ b = 0 then x else y := by
  unfold Ideal.cmp Scalar.select IntOp.andi
  by_cases ha : a = 0 <;> by_cases hb : b = 0 <;> simp [ha, hb]

/-- The lower end from the row-reduced vector `red`, known at row `p`: capped at 0, times the clamped factor plus one. -/
theorem lowEnd_core (row : Fin 128 → EReal) (red : FVec Ideal S512 .f32) (c : Vec Ideal S512x1 .f32) (p : Fin 512) (u : Fin 1)
    (hred : red (ix1 p) = (Finset.univ : Finset (Fin 128)).fold min ⊤ row) :
    mulf (minimumf (shapeCast S512x1 red shapeCasts_S512_S512x1) (broadcast S512x1 (Scalar.ofBits .f32 0x00000000#32)))
        (addf (minimumf (broadcast S512x1 (Scalar.ofBits .f32 0x00000000#32))
            (maximumf (broadcast S512x1 (Scalar.ofBits .f32 0xBF800000#32)) (shapeCast S512x1 c shapeCasts_S512x1_S512x1)))
          (broadcast S512x1 (Scalar.ofBits .f32 0x3F800000#32))) (ix2 p u)
      = FakeQuant.groupLo row (FakeQuant.clipUnit (c (ix2 p u))) := by
  show min (shapeCast S512x1 red shapeCasts_S512_S512x1 (ix2 p u)) (Ideal.ofBits .f32 0x00000000#32)
      * (min (Ideal.ofBits .f32 0x00000000#32) (max (Ideal.ofBits .f32 0xBF800000#32) (shapeCast S512x1 c shapeCasts_S512x1_S512x1 (ix2 p u))) + Ideal.ofBits .f32 0x3F800000#32) = _
  rw [Gcn.Lib.shapeCast_a_a1_apply, hred, shapeCast_self, Ideal.ofBits_zero_f32, word_neg_one, word_one]
  rfl

/-- The upper end from the row-reduced vector `red`, known at row `p`: floored at 0, times the clamped factor plus one. -/
theorem highEnd_core (row : Fin 128 → EReal) (red : FVec Ideal S512 .f32) (c : Vec Ideal S512x1 .f32) (p : Fin 512) (u : Fin 1)
    (hred : red (ix1 p) = (Finset.univ : Finset (Fin 128)).fold max ⊥ row) :
    mulf (maximumf (shapeCast S512x1 red shapeCasts_S512_S512x1) (broadcast S512x1 (Scalar.ofBits .f32 0x00000000#32)))
        (addf (minimumf (broadcast S512x1 (Scalar.ofBits .f32 0x00000000#32))
            (maximumf (broadcast S512x1 (Scalar.ofBits .f32 0xBF800000#32)) (shapeCast S512x1 c shapeCasts_S512x1_S512x1)))
          (broadcast S512x1 (Scalar.ofBits .f32 0x3F800000#32))) (ix2 p u)
      = FakeQuant.groupHi row (FakeQuant.clipUnit (c (ix2 p u))) := by
  show max (shapeCast S512x1 red shapeCasts_S512_S512x1 (ix2 p u)) (Ideal.ofBits .f32 0x00000000#32)
      * (min (Ideal.ofBits .f32 0x00000000#32) (max (Ideal.ofBits .f32 0xBF800000#32) (shapeCast S512x1 c shapeCasts_S512x1_S512x1 (ix2 p u))) + Ideal.ofBits .f32 0x3F800000#32) = _
  rw [Gcn.Lib.shapeCast_a_a1_apply, hred, shapeCast_self, Ideal.ofBits_zero_f32, word_neg_one, word_one]
  rfl

/-- The pair of ends `A`, `B` as columns: the lower end used is −1 where both are 0. -/
theorem lo_core (A B : FVec Ideal S512x1 .f32) (i : S512x1.Idx) :
    select (andi (cmpf .oeq A (broadcast S512x1 (Scalar.ofBits .f32 0x00000000#32)))
        (cmpf .oeq B (broadcast S512x1 (Scalar.ofBits .f32 0x00000000#32))))
      (broadcast S512x1 (Scalar.ofBits .f32 0xBF800000#32)) A i = FakeQuant.lo (A i) (B i) := by
  show Scalar.select (IntOp.andi (Ideal.cmp .oeq (A i) (Ideal.ofBits .f32 0x00000000#32))
      (Ideal.cmp .oeq (B i) (Ideal.ofBits .f32 0x00000000#32))) (Ideal.ofBits .f32 0xBF800000#32) (A i) = _
  rw [Ideal.ofBits_zero_f32, word_neg_one, select_both_zero]
  rfl

/-- The pair of ends `A`, `B` as columns: the upper end used is 1 where both are 0. -/
theorem hi_core (A B : FVec Ideal S512x1 .f32) (i : S512x1.Idx) :
    select (andi (cmpf .oeq A (broadcast S512x1 (Scalar.ofBits .f32 0x00000000#32)))
        (cmpf .oeq B (broadcast S512x1 (Scalar.ofBits .f32 0x00000000#32))))
      (broadcast S512x1 (Scalar.ofBits .f32 0x3F800000#32)) B i = FakeQuant.hi (A i) (B i) := by
  show Scalar.select (IntOp.andi (Ideal.cmp .oeq (A i) (Ideal.ofBits .f32 0x00000000#32))
      (Ideal.cmp .oeq (B i) (Ideal.ofBits .f32 0x00000000#32))) (Ideal.ofBits .f32 0x3F800000#32) (B i) = _
  rw [Ideal.ofBits_zero_f32, word_one, select_both_zero]
  rfl

variable (w v : Vec Ideal S512x128 .f32) (mn mx : Vec Ideal S512x1 .f32)

/-- The group's lower end at row `p`: the row minimum capped at 0, times the clamped factor plus one. -/
theorem lowEnd_apply (p : Fin 512) (u : Fin 1) :
    k0_pay2 w mn (ix2 p u) = FakeQuant.groupLo (fun k => w (ix2 p k)) (FakeQuant.clipUnit (mn (ix2 p u))) :=
  lowEnd_core (fun k => w (ix2 p k)) (multiReduction .minimumf [1] S512 w 0x7F800000#32 reduces_S512x128_S512 (.inl rfl) rfl) mn p u
    (RowMin.rowMin_apply w reduces_S512x128_S512 (.inl rfl) rfl p)

/-- The group's upper end at row `p`: the row maximum floored at 0, times the clamped factor plus one. -/
theorem highEnd_apply (p : Fin 512) (u : Fin 1) :
    k0_pay3 w mx (ix2 p u) = FakeQuant.groupHi (fun k => w (ix2 p k)) (FakeQuant.clipUnit (mx (ix2 p u))) :=
  highEnd_core (fun k => w (ix2 p k)) (multiReduction .maximumf [1] S512 w 0xFF800000#32 reduces_S512x128_S512 (.inl rfl) rfl) mx p u
    (Gcn.Lib.rowMax_apply w reduces_S512x128_S512 (.inl rfl) rfl p)

/-- The lower end used at row `p`: −1 when both ends are 0. -/
theorem lo_apply (p : Fin 512) (u : Fin 1) :
    k0_pay5 w mn mx (ix2 p u)
      = FakeQuant.lo (FakeQuant.groupLo (fun k => w (ix2 p k)) (FakeQuant.clipUnit (mn (ix2 p u))))
          (FakeQuant.groupHi (fun k => w (ix2 p k)) (FakeQuant.clipUnit (mx (ix2 p u)))) :=
  (lo_core (k0_pay2 w mn) (k0_pay3 w mx) (ix2 p u)).trans (by rw [lowEnd_apply, highEnd_apply])

/-- The upper end used at row `p`: 1 when both ends are 0. -/
theorem hi_apply (p : Fin 512) (u : Fin 1) :
    k0_pay6 w mn mx (ix2 p u)
      = FakeQuant.hi (FakeQuant.groupLo (fun k => w (ix2 p k)) (FakeQuant.clipUnit (mn (ix2 p u))))
          (FakeQuant.groupHi (fun k => w (ix2 p k)) (FakeQuant.clipUnit (mx (ix2 p u)))) :=
  (hi_core (k0_pay2 w mn) (k0_pay3 w mx) (ix2 p u)).trans (by rw [lowEnd_apply, highEnd_apply])

/-- The last stage at entry `(p, j)` from the two ends `L`, `H` as columns: step, zero point, quantize, map back. -/
theorem lastStage_apply (L H : FVec Ideal S512x1 .f32) (p : Fin 512) (j : Fin 128) :
    k0_pay7 w v L H (ix2 p j)
      = FakeQuant.dequant (Ideal.div (H (ix2 p (0 : Fin 1)) - L (ix2 p (0 : Fin 1))) 15)
          (FakeQuant.rnd (Ideal.div (0 - L (ix2 p (0 : Fin 1))) (Ideal.div (H (ix2 p (0 : Fin 1)) - L (ix2 p (0 : Fin 1))) 15)))
          (FakeQuant.rnd (Ideal.div (w (ix2 p j)) (Ideal.div (H (ix2 p (0 : Fin 1)) - L (ix2 p (0 : Fin 1))) 15) + v (ix2 p j))) := by
  unfold k0_pay7
  show broadcastTo S512x128 (divf (subf H L) (broadcast S512x1 (Ideal.ofBits .f32 0x41700000#32))) broadcasts_S512x1_S512x128 (ix2 p j)
      * (min (Ideal.ofBits .f32 0x41700000#32) (max (Ideal.ofBits .f32 0x00000000#32)
          (FakeQuant.rnd (Ideal.div (w (ix2 p j)) (broadcastTo S512x128 (divf (subf H L) (broadcast S512x1 (Ideal.ofBits .f32 0x41700000#32))) broadcasts_S512x1_S512x128 (ix2 p j)) + v (ix2 p j))
            + broadcastTo S512x128 (roundeven (divf (subf (broadcast S512x1 (Ideal.ofBits .f32 0x00000000#32)) L) (divf (subf H L) (broadcast S512x1 (Ideal.ofBits .f32 0x41700000#32))))) broadcasts_S512x1_S512x128 (ix2 p j)))
        - broadcastTo S512x128 (roundeven (divf (subf (broadcast S512x1 (Ideal.ofBits .f32 0x00000000#32)) L) (divf (subf H L) (broadcast S512x1 (Ideal.ofBits .f32 0x41700000#32))))) broadcasts_S512x1_S512x128 (ix2 p j)) = _
  rw [Gcn.Lib.broadcastTo_a1_ab_apply, Gcn.Lib.broadcastTo_a1_ab_apply, Ideal.ofBits_zero_f32, word_fifteen]
  rfl

/-- The whole group at entry `(p, j)`: the fake-quantized weight of row `p`. -/
theorem group_apply (p : Fin 512) (j : Fin 128) :
    k0_pay7 w v (k0_pay5 w mn mx) (k0_pay6 w mn mx) (ix2 p j)
      = FakeQuant.qK (fun k => w (ix2 p k)) (w (ix2 p j)) (v (ix2 p j)) (mn (ix2 p (0 : Fin 1))) (mx (ix2 p (0 : Fin 1))) := by
  rw [lastStage_apply, lo_apply, hi_apply]
  rfl

end Cert.KernelIdeal.QuantEntry

end
-- ==== Proof.QuantBlock.lean ====
/-
  The quantizing kernel's body on one block, read at an entry.

  The body stores its `[512, 2048]` output block in 16 pieces, one per group of 128 columns; piece `g` is the group
  chain of QuantEntry on the loads of columns `128 g … 128 g + 127` of the weight and offset blocks and of column `g`
  of the two `[512, 16]` factor blocks. A unit-stride rectangle at offset `(0, o)` embeds `(p, j)` as `(p, o + j)`, and
  `(128 g + j) / 128 = g`, so every piece is a tile of ONE function of the block index: entry `(p, c)` is the
  fake-quantized weight of row `p`, computed from the 128 columns of `c`'s group and the factors at `(p, c / 128)`.
  The 16 tiles cover the block, so the stored block is that function.
-/
import proofs.«117316_j10024453669436_2_alg».proof.Proof.Gen.KernelIdeal.Frame
import proofs.«117316_j10024453669436_2_alg».proof.Proof.QuantEntry

set_option maxRecDepth 16384

noncomputable section

namespace Cert.KernelIdeal.QuantBlock

open Cert.KernelIdeal Cert.KernelIdeal.Gen Idealize.ShloMosaic Idealize.ShloMosaic.ValueIdx

/-- The group a column lies in. -/
def bgrp (c : Fin 2048) : Fin 16 := ⟨c.val / 128, by omega⟩

/-- The fake-quantized weight at `(r, c)` of a stack of `R` rows: weights `a1`, offsets `a3`, factors `m0`, `m1` laid
    out `[R, 16]`. -/
def rowsQ {R : ℕ} (a1 a3 : (⟨2, ![R, 2048]⟩ : Shape).Idx → EReal) (m0 m1 : (⟨2, ![R, 16]⟩ : Shape).Idx → EReal)
    (r : Fin R) (c : Fin 2048) : EReal :=
  FakeQuant.qK (fun k => a1 (ix2 r (FakeQuant.col c k))) (a1 (ix2 r c)) (a3 (ix2 r c)) (m0 (ix2 r (bgrp c))) (m1 (ix2 r (bgrp c)))

/-- `rowsQ` at row `r` depends only on row `r` of its four arrays: two stacks that agree along a row `r` of the one and
    a row `r'` of the other give the same entry. -/
theorem rowsQ_congr {R R' : ℕ} (a1 a3 : (⟨2, ![R, 2048]⟩ : Shape).Idx → EReal) (m0 m1 : (⟨2, ![R, 16]⟩ : Shape).Idx → EReal)
    (b1 b3 : (⟨2, ![R', 2048]⟩ : Shape).Idx → EReal) (n0 n1 : (⟨2, ![R', 16]⟩ : Shape).Idx → EReal)
    (r : Fin R) (r' : Fin R') (c : Fin 2048)
    (h1 : ∀ z : Fin 2048, a1 (ix2 r z) = b1 (ix2 r' z)) (h3 : ∀ z : Fin 2048, a3 (ix2 r z) = b3 (ix2 r' z))
    (h0 : ∀ g : Fin 16, m0 (ix2 r g) = n0 (ix2 r' g)) (hm1 : ∀ g : Fin 16, m1 (ix2 r g) = n1 (ix2 r' g)) :
    rowsQ a1 a3 m0 m1 r c = rowsQ b1 b3 n0 n1 r' c := by
  unfold rowsQ
  rw [show (fun k : Fin 128 => a1 (ix2 r (FakeQuant.col c k))) = fun k => b1 (ix2 r' (FakeQuant.col c k)) from
    funext fun k => h1 _, h1 c, h3 c, h0 (bgrp c), hm1 (bgrp c)]

variable (x0 x1 : Vec Ideal S512x2048 .f32) (x2 x3 : Vec Ideal S512x16 .f32)

/-- The block the body leaves, as one function of the block index. -/
def blockQ : S512x2048.Idx → EReal := fun y => rowsQ (R := 512) x0 x1 x2 x3 (y 0) (y 1)

/-- A piece whose payload is the group chain on the loads of group `g` is the tile of `blockQ` its rectangle names. -/
theorem piece_of_chain (g : ℕ) (hg : g < 16)
    (inbW : ∀ a, (![0, 128 * g] : Fin 2 → ℕ) a + S512x128.size a ≤ S512x2048.size a)
    (inbM : ∀ a, (![0, g] : Fin 2 → ℕ) a + S512x1.size a ≤ S512x16.size a)
    (pay : FVec Ideal S512x128 .bf16)
    (hpay : pay = k0_pay7 (View.ld x0 (Rect.unit (s := S512x2048) ![0, 128 * g] S512x128.size inbW))
        (View.ld x1 (Rect.unit (s := S512x2048) ![0, 128 * g] S512x128.size inbW))
        (k0_pay5 (View.ld x0 (Rect.unit (s := S512x2048) ![0, 128 * g] S512x128.size inbW))
          (View.ld x2 (Rect.unit (s := S512x16) ![0, g] S512x1.size inbM)) (View.ld x3 (Rect.unit (s := S512x16) ![0, g] S512x1.size inbM)))
        (k0_pay6 (View.ld x0 (Rect.unit (s := S512x2048) ![0, 128 * g] S512x128.size inbW))
          (View.ld x2 (Rect.unit (s := S512x16) ![0, g] S512x1.size inbM)) (View.ld x3 (Rect.unit (s := S512x16) ![0, g] S512x1.size inbM))))
    (x : (Rect.unit (s := S512x2048) ![0, 128 * g] S512x128.size inbW).shape.Idx) :
    pay x = blockQ x0 x1 x2 x3 ((Rect.unit (s := S512x2048) ![0, 128 * g] S512x128.size inbW).emb x) := by
  subst hpay
  obtain ⟨p, j, rfl⟩ : ∃ (p : Fin 512) (j : Fin 128), x = ix2 p j := ⟨x 0, x 1, eq_ix2 x⟩
  have hj := j.isLt
  -- a unit-stride rectangle at offset (0, o) places (p, k) at (p, o + k)
  have eW : ∀ k : Fin 128, (Rect.unit (s := S512x2048) ![0, 128 * g] S512x128.size inbW).idx (ix2 p k)
      = (ix2 p (⟨128 * g + k.val, by have := k.isLt; omega⟩ : Fin 2048) : S512x2048.Idx) := fun k => by
    funext a; apply Fin.ext
    match a with
    | ⟨0, _⟩ => show 0 + 1 * p.val = p.val; omega
    | ⟨1, _⟩ => show 128 * g + 1 * k.val = 128 * g + k.val; omega
  have eM : (Rect.unit (s := S512x16) ![0, g] S512x1.size inbM).idx (ix2 p (0 : Fin 1))
      = (ix2 p (⟨g, hg⟩ : Fin 16) : S512x16.Idx) := by
    funext a; apply Fin.ext
    match a with
    | ⟨0, _⟩ => show 0 + 1 * p.val = p.val; omega
    | ⟨1, _⟩ => show g + 1 * 0 = g; omega
  refine (QuantEntry.group_apply _ _ _ _ p j).trans ?_
  have eE : (Rect.unit (s := S512x2048) ![0, 128 * g] S512x128.size inbW).emb (ix2 p j)
      = (ix2 p (⟨128 * g + j.val, by omega⟩ : Fin 2048) : S512x2048.Idx) := eW j
  rw [eE]
  show _ = rowsQ (R := 512) x0 x1 x2 x3 p (⟨128 * g + j.val, by omega⟩ : Fin 2048)
  unfold rowsQ
  have h1 : (fun k : Fin 128 => View.ld x0 (Rect.unit (s := S512x2048) ![0, 128 * g] S512x128.size inbW) (ix2 p k))
      = fun k => x0 (ix2 p (FakeQuant.col (⟨128 * g + j.val, by omega⟩ : Fin 2048) k)) := funext fun k => by
    show x0 ((Rect.unit (s := S512x2048) ![0, 128 * g] S512x128.size inbW).idx (ix2 p k)) = _
    rw [eW k]
    exact congrArg (fun z : Fin 2048 => x0 (ix2 p z)) (Fin.ext (by
      show 128 * g + k.val = 128 * ((128 * g + j.val) / 128) + k.val; omega))
  have h2 : View.ld x0 (Rect.unit (s := S512x2048) ![0, 128 * g] S512x128.size inbW) (ix2 p j)
      = x0 (ix2 p (⟨128 * g + j.val, by omega⟩ : Fin 2048)) := by
    show x0 ((Rect.unit (s := S512x2048) ![0, 128 * g] S512x128.size inbW).idx (ix2 p j)) = _
    rw [eW j]
  have h3 : View.ld x1 (Rect.unit (s := S512x2048) ![0, 128 * g] S512x128.size inbW) (ix2 p j)
      = x1 (ix2 p (⟨128 * g + j.val, by omega⟩ : Fin 2048)) := by
    show x1 ((Rect.unit (s := S512x2048) ![0, 128 * g] S512x128.size inbW).idx (ix2 p j)) = _
    rw [eW j]
  have h4 : View.ld x2 (Rect.unit (s := S512x16) ![0, g] S512x1.size inbM) (ix2 p (0 : Fin 1))
      = x2 (ix2 p (bgrp (⟨128 * g + j.val, by omega⟩ : Fin 2048))) := by
    show x2 ((Rect.unit (s := S512x16) ![0, g] S512x1.size inbM).idx (ix2 p (0 : Fin 1))) = _
    rw [eM]
    exact congrArg (fun z : Fin 16 => x2 (ix2 p z)) (Fin.ext (by show g = (128 * g + j.val) / 128; omega))
  have h5 : View.ld x3 (Rect.unit (s := S512x16) ![0, g] S512x1.size inbM) (ix2 p (0 : Fin 1))
      = x3 (ix2 p (bgrp (⟨128 * g + j.val, by omega⟩ : Fin 2048))) := by
    show x3 ((Rect.unit (s := S512x16) ![0, g] S512x1.size inbM).idx (ix2 p (0 : Fin 1))) = _
    rw [eM]
    exact congrArg (fun z : Fin 16 => x3 (ix2 p z)) (Fin.ext (by show g = (128 * g + j.val) / 128; omega))
  rw [h1, h2, h3, h4, h5]

/-- The stored block is `blockQ`: its 16 pieces are tiles of it and cover the block. -/
theorem out0_4_apply (y : S512x2048.Idx) : out0_4 x0 x1 x2 x3 y = blockQ x0 x1 x2 x3 y := by
  unfold out0_4
  refine View.canon_apply_of_pieces (Val := Elt Ideal) (e := .bf16) (blockQ x0 x1 x2 x3) _ ?_ y (cover0_4 _ _ _ _ _ _ _ _ _ _ _ _ _ _ _ _ y)
  intro pc hpc
  simp only [List.mem_cons, List.not_mem_nil, or_false] at hpc
  rcases hpc with rfl | rfl | rfl | rfl | rfl | rfl | rfl | rfl | rfl | rfl | rfl | rfl | rfl | rfl | rfl | rfl
  · exact fun x => piece_of_chain x0 x1 x2 x3 15 (by decide) _ _ _ rfl x
  · exact fun x => piece_of_chain x0 x1 x2 x3 14 (by decide) _ _ _ rfl x
  · exact fun x => piece_of_chain x0 x1 x2 x3 13 (by decide) _ _ _ rfl x
  · exact fun x => piece_of_chain x0 x1 x2 x3 12 (by decide) _ _ _ rfl x
  · exact fun x => piece_of_chain x0 x1 x2 x3 11 (by decide) _ _ _ rfl x
  · exact fun x => piece_of_chain x0 x1 x2 x3 10 (by decide) _ _ _ rfl x
  · exact fun x => piece_of_chain x0 x1 x2 x3 9 (by decide) _ _ _ rfl x
  · exact fun x => piece_of_chain x0 x1 x2 x3 8 (by decide) _ _ _ rfl x
  · exact fun x => piece_of_chain x0 x1 x2 x3 7 (by decide) _ _ _ rfl x
  · exact fun x => piece_of_chain x0 x1 x2 x3 6 (by decide) _ _ _ rfl x
  · exact fun x => piece_of_chain x0 x1 x2 x3 5 (by decide) _ _ _ rfl x
  · exact fun x => piece_of_chain x0 x1 x2 x3 4 (by decide) _ _ _ rfl x
  · exact fun x => piece_of_chain x0 x1 x2 x3 3 (by decide) _ _ _ rfl x
  · exact fun x => piece_of_chain x0 x1 x2 x3 2 (by decide) _ _ _ rfl x
  · exact fun x => piece_of_chain x0 x1 x2 x3 1 (by decide) _ _ _ rfl x
  · exact fun x => piece_of_chain x0 x1 x2 x3 0 (by decide) _ _ _ rfl x

end Cert.KernelIdeal.QuantBlock

end
-- ==== Proof.Region0.lean ====
/-
  The quantizing kernel's region, from its blocks to the whole weight array.

  The grid has 16 points; point `t` stages rows `512 t … 512 t + 511` of the weights, of the rounding offsets and of
  the two `[8192, 16]` factor arrays, and writes back the same rows of the output. The block the body leaves at point `t`
  is, entry by entry, the fake-quantized weight computed from row `p` of the staged blocks (QuantBlock), and row `p` of
  a staged block is row `512 t + p` of its array; so what point `t` writes back is block `t` of ONE function of the
  arrays as the region finds them: `arrQ`, the fake-quantized weight at `(r, c)` from row `r` of the four arrays. Row `r`
  lies in the block of point `r / 512`, so the blocks cover the array and it ends holding `arrQ`.
-/
import proofs.«117316_j10024453669436_2_alg».proof.Proof.Gen.KernelIdeal.Frame
import proofs.«117316_j10024453669436_2_alg».proof.Proof.QuantBlock

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL.Sem
open Idealize.ShloMosaic.Pipeline (Dat)

/-- The fake-quantized weight array from the four arrays as the region finds them. -/
def arrQ (A1 A3 : S8192x2048.Idx → EReal) (M0 M1 : S8192x16.Idx → EReal) : S8192x2048.Idx → EReal :=
  fun i => QuantBlock.rowsQ (R := 8192) A1 A3 M0 M1 (i 0) (i 1)

/-- Every window's block at point `t` is row block `t`, column block 0. -/
theorem blockIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

variable (V : (c : Dev nD) → (b : Ref sig .tc) → Buf (Elt Ideal) ((c : Thread nD τ).loc b)) (c : Dev nD)

/-- The row of the array that row `p` of point `t`'s blocks is. -/
def arrRow (t : Fin cfg0.N) (p : Fin 512) : Fin 8192 := ⟨512 * t.val + p.val, by
  have ht : t.val < 16 := lt_of_lt_of_eq t.isLt N_0
  have := p.isLt; omega⟩

/-- Row `p` of the staged weight block at point `t` is row `512 t + p` of the weight array. -/
theorem weights_block (t : Fin cfg0.N) (p : Fin 512) (z : Fin 2048) :
    iblk0 V c 0 t (ix2 p z) = V c main_arg1 (ix2 (arrRow t p) z) := by
  obtain ⟨e0, e1, -⟩ := blockIndex t
  show V c main_arg1 (((cfg0.win 0).blk t).view.emb (ix2 p z)) = V c main_arg1 (ix2 (arrRow t p) z)
  refine congrArg (V c main_arg1) (funext fun a => Fin.ext ?_)
  match a with
  | ⟨0, _⟩ => show win0_0.index t (0 : Fin 2) * 512 + 1 * p.val = 512 * t.val + p.val; omega
  | ⟨1, _⟩ => show win0_0.index t (1 : Fin 2) * 2048 + 1 * z.val = z.val; omega

/-- Row `p` of the staged offset block at point `t` is row `512 t + p` of the offset array. -/
theorem offsets_block (t : Fin cfg0.N) (p : Fin 512) (z : Fin 2048) :
    iblk0 V c 1 t (ix2 p z) = V c main_arg3 (ix2 (arrRow t p) z) := by
  obtain ⟨-, -, e0, e1, -⟩ := blockIndex t
  show V c main_arg3 (((cfg0.win 1).blk t).view.emb (ix2 p z)) = V c main_arg3 (ix2 (arrRow t p) z)
  refine congrArg (V c main_arg3) (funext fun a => Fin.ext ?_)
  match a with
  | ⟨0, _⟩ => show win0_1.index t (0 : Fin 2) * 512 + 1 * p.val = 512 * t.val + p.val; omega
  | ⟨1, _⟩ => show win0_1.index t (1 : Fin 2) * 2048 + 1 * z.val = z.val; omega

/-- Row `p` of the staged lower-factor block at point `t` is row `512 t + p` of its array. -/
theorem minFactors_block (t : Fin cfg0.N) (p : Fin 512) (g : Fin 16) :
    iblk0 V c 2 t (ix2 p g) = V c main_v0 (ix2 (arrRow t p) g) := by
  obtain ⟨-, -, -, -, e0, e1, -⟩ := blockIndex t
  show V c main_v0 (((cfg0.win 2).blk t).view.emb (ix2 p g)) = V c main_v0 (ix2 (arrRow t p) g)
  refine congrArg (V c main_v0) (funext fun a => Fin.ext ?_)
  match a with
  | ⟨0, _⟩ => show win0_2.index t (0 : Fin 2) * 512 + 1 * p.val = 512 * t.val + p.val; omega
  | ⟨1, _⟩ => show win0_2.index t (1 : Fin 2) * 16 + 1 * g.val = g.val; omega

/-- Row `p` of the staged upper-factor block at point `t` is row `512 t + p` of its array. -/
theorem maxFactors_block (t : Fin cfg0.N) (p : Fin 512) (g : Fin 16) :
    iblk0 V c 3 t (ix2 p g) = V c main_v1 (ix2 (arrRow t p) g) := by
  obtain ⟨-, -, -, -, -, -, e0, e1, -⟩ := blockIndex t
  show V c main_v1 (((cfg0.win 3).blk t).view.emb (ix2 p g)) = V c main_v1 (ix2 (arrRow t p) g)
  refine congrArg (V c main_v1) (funext fun a => Fin.ext ?_)
  match a with
  | ⟨0, _⟩ => show win0_3.index t (0 : Fin 2) * 512 + 1 * p.val = 512 * t.val + p.val; omega
  | ⟨1, _⟩ => show win0_3.index t (1 : Fin 2) * 16 + 1 * g.val = g.val; omega

/-- Entry `(p, z)` of the output block at point `t` is entry `(512 t + p, z)` of the output array. -/
theorem output_emb (t : Fin cfg0.N) (p : Fin 512) (z : Fin 2048) :
    ((cfg0.win 4).blk t).view.emb (ix2 p z) = (ix2 (arrRow t p) z : S8192x2048.Idx) := by
  obtain ⟨-, -, -, -, -, -, -, -, e0, e1⟩ := blockIndex t
  refine funext fun a => Fin.ext ?_
  match a with
  | ⟨0, _⟩ => show win0_4.index t (0 : Fin 2) * 512 + 1 * p.val = 512 * t.val + p.val; omega
  | ⟨1, _⟩ => show win0_4.index t (1 : Fin 2) * 2048 + 1 * z.val = z.val; omega

/-- What point `t` writes back is block `t` of `arrQ` of the arrays as the region finds them. -/
theorem flushed_eq (t : Fin cfg0.N) :
    (dat0 V c).flushed 4 t
      = ((cfg0.win 4).blk t).view.read (Elt Ideal) (arrQ (V c main_arg1) (V c main_arg3) (V c main_v0) (V c main_v1)) := by
  show (cfg0.win 4).cut (grid0.coords t) ((dat0 V c).after 4 t) = _
  rw [after0_4]
  funext j
  obtain ⟨p, z, rfl⟩ : ∃ (p : Fin 512) (z : Fin 2048), j = ix2 p z := ⟨j 0, j 1, eq_ix2 j⟩
  show out0_4 (iblk0 V c 0 t) (iblk0 V c 1 t) (iblk0 V c 2 t) (iblk0 V c 3 t) (ix2 p z)
      = arrQ (V c main_arg1) (V c main_arg3) (V c main_v0) (V c main_v1) (((cfg0.win 4).blk t).view.emb (ix2 p z))
  rw [QuantBlock.out0_4_apply, output_emb t p z]
  show QuantBlock.rowsQ (R := 512) (iblk0 V c 0 t) (iblk0 V c 1 t) (iblk0 V c 2 t) (iblk0 V c 3 t) p z
      = QuantBlock.rowsQ (R := 8192) (V c main_arg1) (V c main_arg3) (V c main_v0) (V c main_v1) (arrRow t p) z
  exact QuantBlock.rowsQ_congr _ _ _ _ _ _ _ _ p (arrRow t p) z (weights_block V c t p) (offsets_block V c t p)
    (minFactors_block V c t p) (maxFactors_block V c t p)

/-- An index of the output array is in point `t`'s block iff each coordinate is in the block's range on its axis. -/
theorem mem_blk (t : Fin cfg0.N) (i : S8192x2048.Idx) :
    i ∈ ((cfg0.win 4).blk t).view.set ↔ ∀ a : Fin 2, win0_4.index t a * S512x2048.size a ≤ (i a).val
      ∧ (i a).val < win0_4.index t a * S512x2048.size a + S512x2048.size a := by
  show i ∈ ((View.whole main_v2).slice (win0_4.rect t)).set ↔ _
  rw [View.set_slice_whole, Rect.mem_set_unit]
  exact Iff.rfl

/-- Every index of the output array lies in the block of the point its row block names. -/
theorem covered (i : S8192x2048.Idx) :
    ∃ t : Fin cfg0.N, (cfg0.win 4).flush t = true ∧ i ∈ ((cfg0.win 4).blk t).view.set := by
  have hi0 : (i 0).val < 8192 := (i 0).isLt
  have hi1 : (i 1).val < 2048 := (i 1).isLt
  refine ⟨⟨(i 0).val / 512, by rw [show cfg0.N = 16 from N_0]; omega⟩, flush0_4 _, ?_⟩
  rw [mem_blk]
  obtain ⟨-, -, -, -, -, -, -, -, e0, e1⟩ := blockIndex ⟨(i 0).val / 512, by rw [show cfg0.N = 16 from N_0]; omega⟩
  intro a
  match a with
  | ⟨0, _⟩ =>
    show win0_4.index _ (0 : Fin 2) * 512 ≤ (i 0).val ∧ (i 0).val < win0_4.index _ (0 : Fin 2) * 512 + 512
    rw [e0]; show (i 0).val / 512 * 512 ≤ (i 0).val ∧ (i 0).val < (i 0).val / 512 * 512 + 512; omega
  | ⟨1, _⟩ =>
    show win0_4.index _ (1 : Fin 2) * 2048 ≤ (i 1).val ∧ (i 1).val < win0_4.index _ (1 : Fin 2) * 2048 + 2048
    rw [e1]; omega

/-- The output array after the region: the fake-quantized weights of the arrays as the region finds them. -/
theorem final : (dat0 V c).arrAt 4 cfg0.N = arrQ (V c main_arg1) (V c main_arg3) (V c main_v0) (V c main_v1) :=
  (dat0 V c).arrAt_eq_of_cover 4 _ (fun t _ => flushed_eq V c t) (covered)

end Cert.KernelIdeal.Region0

end
-- ==== Proof.LibTransposedDot.lean ====
/-
  A matrix product whose right operand is contracted on its LAST axis, read at an entry.

  The dimension numbers "contract the left operand's columns with the right operand's columns, no batch axis"
  (`DotDims.transposedRhs M K N`: an `M × K` matrix against an `N × K` one) give, on the extended reals and
  into a zero accumulator, the entry `(p, q) ↦ ∑ k, lhs (p, k) * rhs (q, k)`: the product with the right
  operand's transpose. The contraction index of the library is a one-coordinate index; the bijection with
  `Fin K` moves the sum.
-/
import Idealize.ShloMosaic.PureOps.Ideal.Laws
import Idealize.ShloMosaic.Lib.ValueIdx

namespace LinkLoss

open Idealize.ShloMosaic Idealize.ShloMosaic.ValueIdx

variable {M K N : ℕ}

/-- The left operand's index at output entry `(p, q)` and contracted coordinate `k` is `(p, k)`. -/
theorem transposed_lhsIdx (p : Fin M) (q : Fin N) (k : Fin K) :
    (DotDims.transposedRhs M K N).lhsIdx (ix2 p q) ((contrEquiv1 (DotDims.transposedRhs M K N) K rfl rfl).symm k)
      = ix2 p k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single (cl := 1) rfl _ _).trans hk

/-- The right operand's index at output entry `(p, q)` and contracted coordinate `k` is `(q, k)`. -/
theorem transposed_rhsIdx (p : Fin M) (q : Fin N) (k : Fin K) :
    (DotDims.transposedRhs M K N).rhsIdx (ix2 p q) ((contrEquiv1 (DotDims.transposedRhs M K N) K rfl rfl).symm k)
      = ix2 q k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single (cr := 1) rfl _ _).trans hk

/-- The matrix unit accumulating into the zero vector, read at entry `(p, q)`. -/
theorem transposed_matmul_zero_apply {φ₁ φ₂ : FTy} (lhs : FVec Ideal ⟨2, ![M, K]⟩ φ₁) (rhs : FVec Ideal ⟨2, ![N, K]⟩ φ₂)
    (prec : Option ContractPrecision) (p : Fin M) (q : Fin N) :
    FloatOps.matmul (DotDims.transposedRhs M K N) prec lhs rhs (constant ⟨2, ![M, N]⟩ .f32 0x00000000#32) (ix2 p q)
      = ∑ k : Fin K, lhs (ix2 p k) * rhs (ix2 q k) := by
  refine (Ideal.matmul_constant_zero_apply (DotDims.transposedRhs M K N) prec lhs rhs (ix2 p q)).trans ?_
  rw [← Equiv.sum_comp (contrEquiv1 (DotDims.transposedRhs M K N) K rfl rfl).symm]
  refine Finset.sum_congr rfl fun k _ => ?_
  rw [transposed_lhsIdx, transposed_rhsIdx]

end LinkLoss
-- ==== Proof.LibTransposedRecord.lean ====
/-
  A printed matrix-product record read as the product with the right operand's transpose.

  A matrix product of an [M, K] by an [N, K] operand that contracts the columns of both operands and has no
  batch axis is determined by its six lists of axes; the record's last field is a proof. So any record with those
  lists IS the record of the product with the transposed right operand, and at entry (p, q) the product
  accumulated into zero is the sum over k of lhs (p, k) * rhs (q, k), on the extended reals.
-/
import proofs.«117316_j10024453669436_2_alg».proof.Proof.LibTransposedDot

namespace TransposedRecord

open Idealize.ShloMosaic Idealize.ShloMosaic.ValueIdx

variable {M K N : ℕ}

/-- A record whose six axis lists contract both operands' last axes is the transposed-right-operand record. -/
theorem eq_transposedRhs (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = []) :
    d = DotDims.transposedRhs M K N := by
  obtain ⟨lc, rc, ln, rn, lb, rb, wf⟩ := d
  simp only at h1 h2 h3 h4 h5 h6
  subst h1 h2 h3 h4 h5 h6
  rfl

/-- The matrix unit accumulating into the zero vector, under any record with those lists, at entry (p, q):
    the row p of the left operand against the row q of the right one. -/
theorem matmul_zero_apply {φ₁ φ₂ : FTy} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    (lhs : FVec Ideal ⟨2, ![M, K]⟩ φ₁) (rhs : FVec Ideal ⟨2, ![N, K]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 q k) := by
  rw [eq_transposedRhs d h1 h2 h3 h4 h5 h6]
  exact LinkLoss.transposed_matmul_zero_apply lhs rhs prec p q

end TransposedRecord
-- ==== Proof.MatmulEntry.lean ====
/-
  The matrix-product body read at an entry.

  The body loads a `[512, 2048]` block of activations, a `[2048, 2048]` block of weights and a `[1, 2048]` block of
  the bias, multiplies the activations by the TRANSPOSE of the weights (the product contracts the last axis of both
  operands), and adds the bias row to every row. On the extended reals the narrowing of the activations to a shorter
  format is the identity, so entry `(p, q)` of what the body stores is `∑ k, x (p, k) · w (q, k) + b (0, q)`.
-/
import proofs.«117316_j10024453669436_2_alg».proof.Proof.Gen.KernelIdeal.Skeleton
import proofs.«117316_j10024453669436_2_alg».proof.Proof.LibTransposedRecord
import Idealize.ShloMosaic.Lib.ValueLayout
import Idealize.ShloMosaic.Lib.Pipeline.Value

noncomputable section

open scoped BigOperators

namespace Cert.KernelIdeal.Matmul

open Cert.KernelIdeal Cert.KernelIdeal.Gen Idealize.ShloMosaic Idealize.ShloMosaic.ValueIdx

/-- Entry `(p, q)` of the body's stored block: row `p` of the activations against row `q` of the weights, plus the
    bias at column `q`. -/
theorem body_apply (x : Vec Ideal S512x2048 .f32) (wt : Vec Ideal S2048x2048 .bf16) (b : Vec Ideal S1x2048 .f32)
    (p : Fin 512) (q : Fin 2048) :
    k1_pay1 x wt b (ix2 p q) = (∑ k : Fin 2048, x (ix2 p k) * wt (ix2 q k)) + b (ix2 (0 : Fin 1) q) := by
  unfold k1_pay1
  refine (addf_apply _ _ _).trans ?_
  congr 1
  · rw [shapeCast_self x shapeCasts_S512x2048_S512x2048, shapeCast_self wt shapeCasts_S2048x2048_S2048x2048]
    exact TransposedRecord.matmul_zero_apply dot_S512x2048_S2048x2048_S512x2048_1_1_0_0_n_n rfl rfl rfl rfl rfl rfl
      (truncf .bf16 x bitsLt_bf16_f32) wt none p q
  · rw [shapeCast_self b shapeCasts_S1x2048_S1x2048]
    exact broadcastTo_1b_ab_apply b broadcasts_S1x2048_S512x2048 p q

end Cert.KernelIdeal.Matmul

end
-- ==== Proof.SpecLinear.lean ====
/-
  The linear layer over an arbitrary weight matrix, and the fake-quantized layer as an instance of it.

  `linear X Wq B (p, q) = ∑ k, X (p, k) · Wq (q, k) + B q`: row `p` of the activations against row `q` of the weights (the
  weights are stored output-feature major, so no transpose appears), plus the bias. With the fake-quantized weights in
  the direct spelling for `Wq` this is `FakeQuant.outK`.
-/
import proofs.«117316_j10024453669436_2_alg».proof.Proof.Spec

noncomputable section

open scoped BigOperators

namespace FakeQuant

open Idealize.ShloMosaic Idealize.ShloMosaic.ValueIdx

/-- The linear layer at `(p, q)` over a weight matrix `Wq : [8192, 2048]`. -/
def linear (X : (⟨2, ![4096, 2048]⟩ : Shape).Idx → EReal) (Wq : (⟨2, ![8192, 2048]⟩ : Shape).Idx → EReal)
    (B : (⟨1, ![8192]⟩ : Shape).Idx → EReal) (p : Fin 4096) (q : Fin 8192) : EReal :=
  (∑ k : Fin 2048, X (ix2 p k) * Wq (ix2 q k)) + B (ix1 q)

/-- The fake-quantized weight matrix as an array. -/
def wqArr (W V : (⟨2, ![8192, 2048]⟩ : Shape).Idx → EReal) (MN MX : (⟨1, ![131072]⟩ : Shape).Idx → EReal) :
    (⟨2, ![8192, 2048]⟩ : Shape).Idx → EReal := fun i => wqK W V MN MX (i 0) (i 1)

/-- The fake-quantized layer is the linear layer over the fake-quantized weights. -/
theorem outK_eq_linear (X : (⟨2, ![4096, 2048]⟩ : Shape).Idx → EReal) (B : (⟨1, ![8192]⟩ : Shape).Idx → EReal)
    (W V : (⟨2, ![8192, 2048]⟩ : Shape).Idx → EReal) (MN MX : (⟨1, ![131072]⟩ : Shape).Idx → EReal)
    (p : Fin 4096) (q : Fin 8192) : outK X B W V MN MX p q = linear X (wqArr W V MN MX) B p q := rfl

end FakeQuant

end
-- ==== Proof.MatmulRegion.lean ====
/-
  The matrix-product region, from its blocks to the whole output array.

  The region runs the matrix-product body at the 32 points of a 4 × 8 grid. At point `t` with grid coordinates
  `(b, s)`, `b < 4`, `s < 8`, the output block is the `[512, 2048]` block with row-block index `a` and
  column-block index `b`, where `a = s` for even `b` and `a = 7 − s` for odd `b` (the rows are walked back and forth);
  the activations' block is row block `a`, the weights' block is row block `b` of the `[8192, 2048]` weights, and the
  bias block is column block `b` of the bias row. So what point `t` writes back is block `(a, b)` of the linear layer
  `(p, q) ↦ ∑ k, X (p, k) · Wq (q, k) + B q`, and the 32 blocks tile the `[4096, 8192]` output.
-/
import proofs.«117316_j10024453669436_2_alg».proof.Proof.Gen.KernelIdeal.Frame
import proofs.«117316_j10024453669436_2_alg».proof.Proof.MatmulEntry
import proofs.«117316_j10024453669436_2_alg».proof.Proof.SpecLinear

set_option maxRecDepth 16384

noncomputable section

open scoped BigOperators

namespace Cert.KernelIdeal.Matmul

open Cert.KernelIdeal Cert.KernelIdeal.Gen Idealize.ShloMosaic Idealize.ShloMosaic.ValueIdx Idealize.ShloMosaic.TcCoe
open Idealize.SL Idealize.SL.Sem
open Idealize.ShloMosaic.Pipeline (Dat Cfg Window)

/-! ### The index maps -/

theorem zero_offsets : (![0, 0] : Fin 2 → Nat) = fun _ => 0 := funext fun a => by fin_cases a <;> rfl

/-- The printed index maps, decided over the grid: the activations' block is the output's row block, the weights'
    block is (as a row block of the weights) the output's column block, the bias block is the output's column block,
    and the output's block indices stay in their ranges. -/
theorem index_facts : ∀ t : Fin cfg1.N,
    win1_0.index t (0 : Fin 2) = win1_3.index t (0 : Fin 2)
    ∧ win1_0.index t (1 : Fin 2) = 0
    ∧ win1_1.index t (0 : Fin 2) = win1_3.index t (1 : Fin 2)
    ∧ win1_1.index t (1 : Fin 2) = 0
    ∧ win1_2.index t (0 : Fin 2) = 0
    ∧ win1_2.index t (1 : Fin 2) = win1_3.index t (1 : Fin 2)
    ∧ win1_3.index t (0 : Fin 2) ≤ 7
    ∧ win1_3.index t (1 : Fin 2) ≤ 3 :=
  (by decide +kernel : ∀ t : Fin grid1.N, _)

/-- Every output block `(a, b)`, `a < 8`, `b < 4`, is some point's. -/
theorem index_onto : ∀ (a : Fin 8) (b : Fin 4), ∃ t : Fin cfg1.N, win1_3.index t = ![a.val, b.val] :=
  (by decide +kernel : ∀ (a : Fin 8) (b : Fin 4), ∃ t : Fin grid1.N, win1_3.index t = ![a.val, b.val])

/-! ### One entry of one block -/

/-- The body's stored block at an index of the block. -/
theorem pay_at (x : Vec Ideal S512x2048 .f32) (wt : Vec Ideal S2048x2048 .bf16) (b : Vec Ideal S1x2048 .f32)
    (j : S512x2048.Idx) :
    k1_pay1 x wt b j = (∑ k : Fin 2048, x (ix2 (j 0) k) * wt (ix2 (j 1) k)) + b (ix2 (0 : Fin 1) (j 1)) :=
  (congrArg (k1_pay1 x wt b) (eq_ix2 j)).trans (body_apply x wt b (j 0) (j 1))

/-- When the three loaded blocks read the arrays where the output index `i` says, the body's entry is the linear
    layer at `i`. -/
theorem block_entry (X : S4096x2048.Idx → EReal) (Wq : S8192x2048.Idx → EReal) (B : S8192.Idx → EReal)
    (x : Vec Ideal S512x2048 .f32) (wt : Vec Ideal S2048x2048 .bf16) (b : Vec Ideal S1x2048 .f32)
    (j : S512x2048.Idx) (i : S4096x8192.Idx)
    (hx : ∀ k : Fin 2048, x (ix2 (j 0) k) = X (ix2 (i 0) k))
    (hw : ∀ k : Fin 2048, wt (ix2 (j 1) k) = Wq (ix2 (i 1) k))
    (hb : b (ix2 (0 : Fin 1) (j 1)) = B (ix1 (i 1))) :
    k1_pay1 x wt b j = FakeQuant.linear X Wq B (i 0) (i 1) := by
  rw [pay_at, hb]
  unfold FakeQuant.linear
  congr 1
  exact Finset.sum_congr rfl fun k _ => by rw [hx, hw]

/-! ### What a point writes back, the cover, and the whole array -/

section Region

variable (V : (c : Dev nD) → (b : Ref sig .tc) → Buf (Elt Ideal) ((c : Thread nD τ).loc b)) (c : Dev nD)
  (X : S4096x2048.Idx → EReal) (Wq : S8192x2048.Idx → EReal) (B : S8192.Idx → EReal)

/-- What point `t` writes back is block `t` of the linear layer of the arrays the region finds. -/
theorem flushed_eq (hX : V c main_v3 = X) (hW : V c main_v2 = Wq)
    (hB : V c main_v4 = shapeCast S1x8192 B shapeCasts_S8192_S1x8192) (t : Fin cfg1.N) :
    (dat1 (F := Ideal) V c).flushed 3 t
      = ((cfg1.win 3).blk t).view.read (Elt Ideal) (fun i : S4096x8192.Idx => FakeQuant.linear X Wq B (i 0) (i 1)) := by
  show (cfg1.win 3).cut (grid1.coords t) ((dat1 (F := Ideal) V c).after 3 t) = _
  rw [after1_3]
  unfold out1_3
  rw [View.canon_unit_zero zero_offsets]
  simp only [View.ld_unit_zero (S := S512x2048) zero_offsets, View.ld_unit_zero (S := S2048x2048) zero_offsets,
    View.ld_unit_zero (S := S1x2048) zero_offsets]
  obtain ⟨e0, e1, e2, e3, e4, e5, e6, e7⟩ := index_facts t
  funext j
  show k1_pay1 (iblk1 V c 0 t) (iblk1 V c 1 t) (iblk1 V c 2 t) j
    = FakeQuant.linear X Wq B ((((cfg1.win 3).blk t).view.emb j) 0) ((((cfg1.win 3).blk t).view.emb j) 1)
  refine block_entry X Wq B (iblk1 V c 0 t) (iblk1 V c 1 t) (iblk1 V c 2 t) j (((cfg1.win 3).blk t).view.emb j) ?_ ?_ ?_
  · intro k
    show V c main_v3 (((cfg1.win 0).blk t).view.emb (ix2 (j 0) k)) = X (ix2 ((((cfg1.win 3).blk t).view.emb j) 0) k)
    rw [hX]
    refine congrArg X ?_
    funext a
    apply Fin.ext
    match a with
    | ⟨0, _⟩ =>
      show win1_0.index t (0 : Fin 2) * 512 + 1 * (j 0).val = win1_3.index t (0 : Fin 2) * 512 + 1 * (j 0).val
      omega
    | ⟨1, _⟩ =>
      show win1_0.index t (1 : Fin 2) * 2048 + 1 * k.val = k.val
      omega
  · intro k
    show V c main_v2 (((cfg1.win 1).blk t).view.emb (ix2 (j 1) k)) = Wq (ix2 ((((cfg1.win 3).blk t).view.emb j) 1) k)
    rw [hW]
    refine congrArg Wq ?_
    funext a
    apply Fin.ext
    match a with
    | ⟨0, _⟩ =>
      show win1_1.index t (0 : Fin 2) * 2048 + 1 * (j 1).val = win1_3.index t (1 : Fin 2) * 2048 + 1 * (j 1).val
      omega
    | ⟨1, _⟩ =>
      show win1_1.index t (1 : Fin 2) * 2048 + 1 * k.val = k.val
      omega
  · show V c main_v4 (((cfg1.win 2).blk t).view.emb (ix2 (0 : Fin 1) (j 1))) = B (ix1 ((((cfg1.win 3).blk t).view.emb j) 1))
    rw [hB]
    refine shapeCast_apply B shapeCasts_S8192_S1x8192 _ _ ?_
    rewrite [Shape.rowMajor_val_one, Shape.rowMajor_val_two]
    show win1_3.index t (1 : Fin 2) * 2048 + 1 * (j 1).val
      = (win1_2.index t (0 : Fin 2) * 1 + 1 * 0) * 8192 + (win1_2.index t (1 : Fin 2) * 2048 + 1 * (j 1).val)
    omega

/-- An index of the output array is in point `t`'s block iff each coordinate is in the block's range on its axis. -/
theorem mem_block (t : Fin cfg1.N) (i : S4096x8192.Idx) :
    i ∈ ((cfg1.win 3).blk t).view.set ↔ ∀ a : Fin 2, win1_3.index t a * S512x2048.size a ≤ (i a).val
      ∧ (i a).val < win1_3.index t a * S512x2048.size a + S512x2048.size a := by
  show i ∈ ((View.whole main_v5).slice (win1_3.rect t)).set ↔ _
  rw [View.set_slice_whole, Rect.mem_set_unit]
  exact Iff.rfl

/-- The blocks tile the output: the index `(p, q)` is in the block `(p / 512, q / 2048)`. -/
theorem covered (i : S4096x8192.Idx) :
    ∃ t : Fin cfg1.N, (cfg1.win 3).flush t = true ∧ i ∈ ((cfg1.win 3).blk t).view.set := by
  have hi0 : (i 0).val < 4096 := (i 0).isLt
  have hi1 : (i 1).val < 8192 := (i 1).isLt
  obtain ⟨t, ht⟩ := index_onto ⟨(i 0).val / 512, by omega⟩ ⟨(i 1).val / 2048, by omega⟩
  have q0 : win1_3.index t (0 : Fin 2) = (i 0).val / 512 := congrFun ht 0
  have q1 : win1_3.index t (1 : Fin 2) = (i 1).val / 2048 := congrFun ht 1
  refine ⟨t, flush1_3 t, ?_⟩
  rw [mem_block]
  intro a
  match a with
  | ⟨0, _⟩ =>
    show win1_3.index t (0 : Fin 2) * 512 ≤ (i 0).val ∧ (i 0).val < win1_3.index t (0 : Fin 2) * 512 + 512
    omega
  | ⟨1, _⟩ =>
    show win1_3.index t (1 : Fin 2) * 2048 ≤ (i 1).val ∧ (i 1).val < win1_3.index t (1 : Fin 2) * 2048 + 2048
    omega

/-- The output array after the region: the linear layer of the arrays the region finds. -/
theorem region1_final (hX : V c main_v3 = X) (hW : V c main_v2 = Wq)
    (hB : V c main_v4 = shapeCast S1x8192 B shapeCasts_S8192_S1x8192) :
    (dat1 (F := Ideal) V c).arrAt 3 cfg1.N = fun i => FakeQuant.linear X Wq B (i 0) (i 1) :=
  (dat1 (F := Ideal) V c).arrAt_eq_of_cover 3 (fun i : S4096x8192.Idx => FakeQuant.linear X Wq B (i 0) (i 1))
    (fun t _ => flushed_eq V c X Wq B hX hW hB t) covered

end Region

end Cert.KernelIdeal.Matmul

end
-- ==== Proof.SpecLaw.lean ====
/-
  The two spellings of the fake-quantized linear layer agree on finite data.

  The straight-through form `x + (f x − x)` equals `f x` whenever `x` is a real number, whatever extended real
  `f x` is: at `f x = ⊥` both sides are `⊥`, at `f x = ⊤` both are `⊤`, and on the reals it is the cancellation
  `x + (y − x) = y`. So it is enough to see that every point where the straight-through form is used is real:
    * the range factors `mn`, `mx` are real by hypothesis;
    * the capped row minimum `min (min row) 0` is a real `≤ 0` and the floored row maximum a real `≥ 0` (a fold of
      `min` from `⊤` over reals capped at `0` never leaves the reals), and the clamp of a real to `[−1, 0]` plus one is
      a real `≥ 0`, so the group's ends are reals `a ≤ 0 ≤ b`;
    * the ends used, `lo` and `hi`, are reals with `hi − lo > 0` (it is `2` in the replaced case, and `b − a` with
      `a ≤ 0 ≤ b` not both `0` otherwise), so the step `(hi − lo) / 15` is a nonzero real;
    * a real divided by a nonzero real is a real, hence both rounded quantities `−lo / s` and `w / s + v` are real.
  The remaining differences are `−a = 0 − a` and the commutativity of the sum with the bias.
-/
import proofs.«117316_j10024453669436_2_alg».proof.Proof.Spec

noncomputable section

open scoped BigOperators

namespace FakeQuant

open Idealize.ShloMosaic Idealize.ShloMosaic.ValueIdx

/-- For a real `x` the straight-through form `x + (f x − x)` is `f x`. -/
theorem ste_coe (f : EReal → EReal) (x : ℝ) : ste f (x : EReal) = f (x : EReal) := by
  unfold ste
  generalize f (x : EReal) = y
  induction y using EReal.rec with
  | bot => rw [EReal.bot_sub, EReal.add_bot]
  | coe r => rw [← EReal.coe_sub, ← EReal.coe_add]; congr 1; ring
  | top => rw [EReal.top_sub_coe, EReal.coe_add_top]

/-- The coercion of the reals commutes with `min`. -/
theorem coe_min' (x y : ℝ) : ((min x y : ℝ) : EReal) = min (x : EReal) (y : EReal) :=
  EReal.coe_strictMono.monotone.map_min

/-- The coercion of the reals commutes with `max`. -/
theorem coe_max' (x y : ℝ) : ((max x y : ℝ) : EReal) = max (x : EReal) (y : EReal) :=
  EReal.coe_strictMono.monotone.map_max

/-- The clamp of a real to `[−1, 0]` is the real clamp. -/
theorem clipUnit_coe (x : ℝ) : clipUnit (x : EReal) = ((min 0 (max (-1) x) : ℝ) : EReal) := by
  unfold clipUnit
  rw [coe_min', coe_max', EReal.coe_zero, EReal.coe_neg, EReal.coe_one]

/-- Over real entries, a fold of `min` from `⊤` capped at `0` is a real `≤ 0`. -/
theorem foldMin_cap_real {n : ℕ} (row : Fin n → EReal) (hrow : ∀ k, ∃ r : ℝ, row k = (r : EReal))
    (s : Finset (Fin n)) : ∃ m : ℝ, m ≤ 0 ∧ min (s.fold min ⊤ row) 0 = (m : EReal) := by
  induction s using Finset.induction_on with
  | empty => exact ⟨0, le_refl _, by rw [Finset.fold_empty, min_eq_right le_top, EReal.coe_zero]⟩
  | insert a s ha ih =>
    obtain ⟨m, hm, hms⟩ := ih
    obtain ⟨r, hr⟩ := hrow a
    refine ⟨min r m, (min_le_right _ _).trans hm, ?_⟩
    rw [Finset.fold_insert ha, min_assoc, hms, hr, coe_min']

/-- Over real entries, a fold of `max` from `⊥` floored at `0` is a real `≥ 0`. -/
theorem foldMax_floor_real {n : ℕ} (row : Fin n → EReal) (hrow : ∀ k, ∃ r : ℝ, row k = (r : EReal))
    (s : Finset (Fin n)) : ∃ m : ℝ, 0 ≤ m ∧ max (s.fold max ⊥ row) 0 = (m : EReal) := by
  induction s using Finset.induction_on with
  | empty => exact ⟨0, le_refl _, by rw [Finset.fold_empty, max_eq_right bot_le, EReal.coe_zero]⟩
  | insert a s ha ih =>
    obtain ⟨m, hm, hms⟩ := ih
    obtain ⟨r, hr⟩ := hrow a
    refine ⟨max r m, hm.trans (le_max_right _ _), ?_⟩
    rw [Finset.fold_insert ha, max_assoc, hms, hr, coe_max']

/-- The group's lower end is a real `≤ 0` when the row is real and the factor is a real `≥ −1`. -/
theorem groupLo_real (row : Fin 128 → EReal) (hrow : ∀ k, ∃ r : ℝ, row k = (r : EReal)) (c : ℝ) (hc : -1 ≤ c) :
    ∃ a : ℝ, a ≤ 0 ∧ groupLo row (c : EReal) = (a : EReal) := by
  obtain ⟨m, hm, hms⟩ := foldMin_cap_real row hrow Finset.univ
  refine ⟨m * (c + 1), mul_nonpos_of_nonpos_of_nonneg hm (by linarith), ?_⟩
  unfold groupLo
  rw [hms, EReal.coe_mul, EReal.coe_add, EReal.coe_one]

/-- The group's upper end is a real `≥ 0` when the row is real and the factor is a real `≥ −1`. -/
theorem groupHi_real (row : Fin 128 → EReal) (hrow : ∀ k, ∃ r : ℝ, row k = (r : EReal)) (c : ℝ) (hc : -1 ≤ c) :
    ∃ b : ℝ, 0 ≤ b ∧ groupHi row (c : EReal) = (b : EReal) := by
  obtain ⟨m, hm, hms⟩ := foldMax_floor_real row hrow Finset.univ
  refine ⟨m * (c + 1), mul_nonneg hm (by linarith), ?_⟩
  unfold groupHi
  rw [hms, EReal.coe_mul, EReal.coe_add, EReal.coe_one]

/-- The lower end used is real. -/
theorem lo_coe (a b : ℝ) : lo (a : EReal) (b : EReal) = ((if a = 0 ∧ b = 0 then -1 else a : ℝ) : EReal) := by
  unfold lo
  simp only [EReal.coe_eq_zero]
  split_ifs
  · rw [EReal.coe_neg, EReal.coe_one]
  · rfl

/-- The upper end used is real. -/
theorem hi_coe (a b : ℝ) : hi (a : EReal) (b : EReal) = ((if a = 0 ∧ b = 0 then 1 else b : ℝ) : EReal) := by
  unfold hi
  simp only [EReal.coe_eq_zero]
  split_ifs
  · rw [EReal.coe_one]
  · rfl

/-- A real divided by a nonzero real is a real. -/
theorem div_coe_coe (x s : ℝ) (hs : s ≠ 0) : Ideal.div (x : EReal) (s : EReal) = ((x * (1 / s) : ℝ) : EReal) := by
  rw [Ideal.div_coe hs, EReal.coe_mul]

/-- With real ends `a ≤ 0 ≤ b` the step is a nonzero real. -/
theorem step_real (a b : ℝ) (ha : a ≤ 0) (hb : 0 ≤ b) :
    ∃ s : ℝ, s ≠ 0 ∧ step (a : EReal) (b : EReal) = (s : EReal) := by
  have h15 : (15 : EReal) = ((15 : ℝ) : EReal) := by norm_cast
  have hpos : 0 < (if a = 0 ∧ b = 0 then (1 : ℝ) else b) - (if a = 0 ∧ b = 0 then (-1 : ℝ) else a) := by
    by_cases h : a = 0 ∧ b = 0
    · rw [if_pos h, if_pos h]; norm_num
    · rw [if_neg h, if_neg h]
      rcases lt_or_eq_of_le ha with ha' | ha'
      · linarith
      · rcases lt_or_eq_of_le hb with hb' | hb'
        · linarith
        · exact absurd ⟨ha', hb'.symm⟩ h
  refine ⟨((if a = 0 ∧ b = 0 then (1 : ℝ) else b) - (if a = 0 ∧ b = 0 then (-1 : ℝ) else a)) * (1 / 15), ?_, ?_⟩
  · exact mul_ne_zero hpos.ne' (by norm_num)
  · unfold step
    rw [hi_coe, lo_coe, ← EReal.coe_sub, h15, div_coe_coe _ _ (by norm_num)]

/-- The two spellings of one fake-quantized weight agree on real data. -/
theorem qR_eq_qK (row : Fin 128 → EReal) (w v mn mx : EReal) (hrow : ∀ k, ∃ r : ℝ, row k = (r : EReal))
    (hw : ∃ r : ℝ, w = (r : EReal)) (hv : ∃ r : ℝ, v = (r : EReal)) (hmn : ∃ r : ℝ, mn = (r : EReal))
    (hmx : ∃ r : ℝ, mx = (r : EReal)) : qR row w v mn mx = qK row w v mn mx := by
  obtain ⟨wr, rfl⟩ := hw
  obtain ⟨vr, rfl⟩ := hv
  obtain ⟨mnr, rfl⟩ := hmn
  obtain ⟨mxr, rfl⟩ := hmx
  unfold qR qK
  rw [ste_coe clipUnit mnr, ste_coe clipUnit mxr, clipUnit_coe mnr, clipUnit_coe mxr]
  obtain ⟨a, ha, hA⟩ := groupLo_real row hrow (min 0 (max (-1) mnr)) (le_min (by norm_num) (le_max_left _ _))
  obtain ⟨b, hb, hB⟩ := groupHi_real row hrow (min 0 (max (-1) mxr)) (le_min (by norm_num) (le_max_left _ _))
  rw [hA, hB]
  obtain ⟨s, hs, hS⟩ := step_real a b ha hb
  rw [hS, lo_coe, ← EReal.coe_neg, div_coe_coe _ s hs, div_coe_coe wr s hs, ← EReal.coe_add, ste_coe rnd, ste_coe rnd,
    zero_sub, ← EReal.coe_neg, div_coe_coe _ s hs]

/-- The two spellings of the layer agree when the weights, offsets and range factors are real. -/
theorem outR_eq_outK (X : (⟨2, ![4096, 2048]⟩ : Shape).Idx → EReal) (B : (⟨1, ![8192]⟩ : Shape).Idx → EReal)
    (W V : (⟨2, ![8192, 2048]⟩ : Shape).Idx → EReal) (MN MX : (⟨1, ![131072]⟩ : Shape).Idx → EReal)
    (hW : ∀ i, ∃ r : ℝ, W i = (r : EReal)) (hV : ∀ i, ∃ r : ℝ, V i = (r : EReal))
    (hMN : ∀ i, ∃ r : ℝ, MN i = (r : EReal)) (hMX : ∀ i, ∃ r : ℝ, MX i = (r : EReal))
    (p : Fin 4096) (q : Fin 8192) : outR X B W V MN MX p q = outK X B W V MN MX p q := by
  unfold outR outK
  rw [add_comm]
  congr 1
  refine Finset.sum_congr rfl fun k _ => ?_
  unfold wqR wqK
  rw [qR_eq_qK _ _ _ _ _ (fun j => hW _) (hW _) (hV _) (hMN _) (hMX _)]

end FakeQuant

end
-- ==== Proof.SpecArray.lean ====
/-
  The layer's output as one array, in the direct and in the straight-through spelling.

  Both programs end by reshaping a `[4096, 8192]` array to `[2, 2048, 8192]`; it is enough to compare the two
  `[4096, 8192]` arrays. `outArr` is the direct spelling's, `outArrR` the straight-through one's; they are the same
  array when the weights, the rounding offsets and the two range-factor vectors hold real numbers.
-/
import proofs.«117316_j10024453669436_2_alg».proof.Proof.SpecLinear
import proofs.«117316_j10024453669436_2_alg».proof.Proof.SpecLaw

noncomputable section

namespace FakeQuant

open Idealize.ShloMosaic Idealize.ShloMosaic.ValueIdx

/-- The layer's output array, direct spelling. -/
def outArr (X : (⟨2, ![4096, 2048]⟩ : Shape).Idx → EReal) (B : (⟨1, ![8192]⟩ : Shape).Idx → EReal)
    (W V : (⟨2, ![8192, 2048]⟩ : Shape).Idx → EReal) (MN MX : (⟨1, ![131072]⟩ : Shape).Idx → EReal) :
    (⟨2, ![4096, 8192]⟩ : Shape).Idx → EReal := fun j => outK X B W V MN MX (j 0) (j 1)

/-- The layer's output array, straight-through spelling. -/
def outArrR (X : (⟨2, ![4096, 2048]⟩ : Shape).Idx → EReal) (B : (⟨1, ![8192]⟩ : Shape).Idx → EReal)
    (W V : (⟨2, ![8192, 2048]⟩ : Shape).Idx → EReal) (MN MX : (⟨1, ![131072]⟩ : Shape).Idx → EReal) :
    (⟨2, ![4096, 8192]⟩ : Shape).Idx → EReal := fun j => outR X B W V MN MX (j 0) (j 1)

/-- The linear layer over the fake-quantized weights, as an array, is `outArr`. -/
theorem linear_wqArr (X : (⟨2, ![4096, 2048]⟩ : Shape).Idx → EReal) (B : (⟨1, ![8192]⟩ : Shape).Idx → EReal)
    (W V : (⟨2, ![8192, 2048]⟩ : Shape).Idx → EReal) (MN MX : (⟨1, ![131072]⟩ : Shape).Idx → EReal) :
    (fun j : (⟨2, ![4096, 8192]⟩ : Shape).Idx => linear X (wqArr W V MN MX) B (j 0) (j 1)) = outArr X B W V MN MX := rfl

/-- For finite data the two spellings give one array. -/
theorem outArrR_eq_outArr (X : (⟨2, ![4096, 2048]⟩ : Shape).Idx → EReal) (B : (⟨1, ![8192]⟩ : Shape).Idx → EReal)
    (W V : (⟨2, ![8192, 2048]⟩ : Shape).Idx → EReal) (MN MX : (⟨1, ![131072]⟩ : Shape).Idx → EReal)
    (hW : ∀ i, ∃ r : ℝ, W i = (r : EReal)) (hV : ∀ i, ∃ r : ℝ, V i = (r : EReal))
    (hMN : ∀ i, ∃ r : ℝ, MN i = (r : EReal)) (hMX : ∀ i, ∃ r : ℝ, MX i = (r : EReal)) :
    outArrR X B W V MN MX = outArr X B W V MN MX :=
  funext fun j => outR_eq_outK X B W V MN MX hW hV hMN hMX (j 0) (j 1)

end FakeQuant

end
-- ==== Proof.KernelValue.lean ====
/-
  The idealized kernel program's value: the result buffer after the run, as one function of the argument arrays.

  Walking the five segments back from the result. The last reshape reads the matrix-product region's output array.
  That region entered with the activations reshaped to `[4096, 2048]`, the bias as a `[1, 8192]` row, and for its
  weights the quantizing region's output array; it leaves `linear` of them. The quantizing region entered with the
  weights and offsets as launched and the two range-factor vectors reshaped to `[8192, 16]`, where entry `(r, g)` is
  the vector's entry `16 r + g`; it leaves the fake-quantized weights. Composed: the result is the reshape to
  `[2, 2048, 8192]` of `FakeQuant.outArr` of the launch contents.
-/
import proofs.«117316_j10024453669436_2_alg».proof.Proof.KernelRun
import proofs.«117316_j10024453669436_2_alg».proof.Proof.Boundaries
import proofs.«117316_j10024453669436_2_alg».proof.Proof.Region0
import proofs.«117316_j10024453669436_2_alg».proof.Proof.MatmulRegion
import proofs.«117316_j10024453669436_2_alg».proof.Proof.SpecArray

set_option maxRecDepth 16384

noncomputable section

namespace Cert.KernelIdeal.KValue

open Cert.KernelIdeal Cert.KernelIdeal.Gen Idealize.ShloMosaic Idealize.ShloMosaic.TcCoe Idealize.ShloMosaic.ValueIdx
open Idealize.SL.Sem

/-- A `[131072]` vector reshaped to `[8192, 16]` reads, at `(r, g)`, the vector at `16 r + g`. -/
theorem factors_reshape (MN : S131072.Idx → EReal) (r : Fin 8192) (g : Fin 16) :
    shapeCast S8192x16 MN shapeCasts_S131072_S8192x16 (ix2 r g)
      = MN (ix1 (⟨16 * r.val + g.val, by have := r.isLt; have := g.isLt; omega⟩ : Fin 131072)) :=
  shapeCast_apply MN shapeCasts_S131072_S8192x16 _ _ (by
    rw [Shape.rowMajor_val_one, Shape.rowMajor_val_two]
    show 16 * r.val + g.val = r.val * 16 + g.val
    omega)

/-- With the factor arrays the reshapes of the two vectors, the region's weight function is the specification's. -/
theorem arrQ_reshape (A1 A3 : S8192x2048.Idx → EReal) (MN MX : S131072.Idx → EReal) :
    Region0.arrQ A1 A3 (shapeCast S8192x16 MN shapeCasts_S131072_S8192x16) (shapeCast S8192x16 MX shapeCasts_S131072_S8192x16)
      = FakeQuant.wqArr A1 A3 MN MX := by
  funext i
  obtain ⟨r, cc, rfl⟩ : ∃ (r : Fin 8192) (cc : Fin 2048), i = ix2 r cc := ⟨i 0, i 1, eq_ix2 i⟩
  show QuantBlock.rowsQ (R := 8192) A1 A3 (shapeCast S8192x16 MN shapeCasts_S131072_S8192x16)
      (shapeCast S8192x16 MX shapeCasts_S131072_S8192x16) r cc = FakeQuant.wqK A1 A3 MN MX r cc
  unfold QuantBlock.rowsQ FakeQuant.wqK
  rw [factors_reshape MN r (QuantBlock.bgrp cc), factors_reshape MX r (QuantBlock.bgrp cc)]
  rfl

variable (m : (ℓ : Loc nD τ sig) → Buf (Elt Ideal) ℓ) (ρ : Dev nD → PrngReg) (c : Dev nD)

/-- The quantizing region leaves the fake-quantized weights of the launch contents. -/
theorem weights_after_region0 :
    (dat0 (V1 m ρ) c).arrAt 4 cfg0.N
      = FakeQuant.wqArr (m ((c.tc : Thread nD τ).loc main_arg1)) (m ((c.tc : Thread nD τ).loc main_arg3))
          (m ((c.tc : Thread nD τ).loc main_arg4)) (m ((c.tc : Thread nD τ).loc main_arg5)) := by
  refine (Region0.final (V1 m ρ) c).trans ?_
  rw [Boundaries.entry0_weights m ρ c, Boundaries.entry0_offsets m ρ c, Boundaries.entry0_minFactors m ρ c,
    Boundaries.entry0_maxFactors m ρ c]
  exact arrQ_reshape _ _ _ _

/-- The result buffer at the last boundary: the layer's output array of the launch contents, reshaped. -/
theorem result_value :
    W5 m ρ c (Proc.devRef .tc main_v6)
      = shapeCast S2x2048x8192
          (FakeQuant.outArr (shapeCast S4096x2048 (m ((c.tc : Thread nD τ).loc main_arg0)) shapeCasts_S2x2048x2048_S4096x2048)
            (m ((c.tc : Thread nD τ).loc main_arg2)) (m ((c.tc : Thread nD τ).loc main_arg1))
            (m ((c.tc : Thread nD τ).loc main_arg3)) (m ((c.tc : Thread nD τ).loc main_arg4))
            (m ((c.tc : Thread nD τ).loc main_arg5)))
          shapeCasts_S4096x8192_S2x2048x8192 := by
  rw [Boundaries.result_eq m ρ c]
  refine congrArg (fun f => shapeCast S2x2048x8192 f shapeCasts_S4096x8192_S2x2048x8192) ?_
  rw [Matmul.region1_final (V3 m ρ) c _ _ _ (Boundaries.entry1_activations m ρ c)
    ((Boundaries.entry1_weights m ρ c).trans (weights_after_region0 m ρ c)) (Boundaries.entry1_bias m ρ c)]
  exact FakeQuant.linear_wqArr _ _ _ _ _ _

/-- The run, re-posted: the result buffer at the layer's output array of the launch contents, reshaped; the six
    argument arrays as launched. -/
theorem run : θ_run defs (onTc (τ := τ) (main (F := Ideal))) ⟨m, fun _ => 0, ρ⟩ (fun r => ∀ c : Dev nD,
      r.2.mem ((c.tc : Thread nD τ).loc main_v6)
        = shapeCast S2x2048x8192
            (FakeQuant.outArr (shapeCast S4096x2048 (m ((c.tc : Thread nD τ).loc main_arg0)) shapeCasts_S2x2048x2048_S4096x2048)
              (m ((c.tc : Thread nD τ).loc main_arg2)) (m ((c.tc : Thread nD τ).loc main_arg1))
              (m ((c.tc : Thread nD τ).loc main_arg3)) (m ((c.tc : Thread nD τ).loc main_arg4))
              (m ((c.tc : Thread nD τ).loc main_arg5)))
            shapeCasts_S4096x8192_S2x2048x8192
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_value m ρ c), (h c).2⟩) (KRun.run_result m ρ)

end Cert.KernelIdeal.KValue

end
-- ==== Proof.RefValue.lean ====
/-
  The reference program read entry by entry.

  The reference computes, for every group `g` of 128 consecutive weights (the weight matrix `[8192, 2048]` recast as
  `[131072, 128]`), the two ends of the group's range, the step and the zero point, fake-quantizes each weight of the
  group, recasts the result to `[8192, 2048]`, and applies the linear layer. Every clamp and every rounding is written
  in the straight-through form `x + (f x − x)`. This file follows the program one stage at a time at explicit
  coordinates `(g, j)`, `g < 131072`, `j < 128`, arriving at `FakeQuant.qR` for the quantized weight, and then joins
  `(g, j) = (16 r + c / 128, c % 128)` with the matrix coordinates `(r, c)` to reach `FakeQuant.outR`.
-/
import proofs.«117316_j10024453669436_2_alg».proof.Proof.Gen.ReferenceIdeal.Read
import proofs.«117316_j10024453669436_2_alg».proof.Proof.Spec
import proofs.«117316_j10024453669436_2_alg».proof.Proof.LibRowOps
import proofs.«117316_j10024453669436_2_alg».proof.Proof.LibRowMin

noncomputable section

open scoped BigOperators

namespace Cert.ReferenceIdeal.RefValue

open Cert.ReferenceIdeal Cert.ReferenceIdeal.Gen Cert.ReferenceIdeal.Read Idealize.ShloMosaic Idealize.ShloMosaic.ValueIdx

/-! ### The constants -/

theorem ofBits_neg_one : Ideal.ofBits .f32 0xBF800000#32 = -1 := by
  simp [Ideal.ofBits, Ideal.ieee]
  rw [← EReal.coe_mul]
  norm_num

theorem ofBits_one : Ideal.ofBits .f32 0x3F800000#32 = 1 := by
  simp [Ideal.ofBits, Ideal.ieee]
  rw [← EReal.coe_mul]
  norm_num

theorem ofBits_fifteen : Ideal.ofBits .f32 0x41700000#32 = 15 := by
  simp [Ideal.ofBits, Ideal.ieee]
  rw [← EReal.coe_mul]
  norm_num
  rfl

/-! ### One-bit words -/

/-- The conjunction of two equality tests selects its first operand exactly when both equalities hold. -/
theorem select_and_eq (a b u v : EReal) :
    Scalar.select (IntOp.andi (Ideal.cmp .oeq a 0) (Ideal.cmp .oeq b 0)) u v = if a = 0 ∧ b = 0 then u else v := by
  by_cases ha : a = 0 <;> by_cases hb : b = 0 <;> simp [Ideal.cmp, IntOp.andi, Scalar.select, ha, hb]

/-! ### The per-group scalars -/

section Stages

variable (x1 x3 : (⟨S8192x2048, .f32⟩ : BufTy).Contents (Elt Ideal)) (x4 x5 : (⟨S131072, .f32⟩ : BufTy).Contents (Elt Ideal))

/-- The 128 weights of group `g`: row `g` of the weight matrix recast to `[131072, 128]`. -/
def row (g : Fin 131072) : Fin 128 → EReal := fun k => val_main_v6 (F := Ideal) x1 (ix2 g k)

/-- The lower end of group `g` before the degenerate case is replaced. -/
def aEnd (g : Fin 131072) : EReal :=
  FakeQuant.groupLo (row x1 g) (FakeQuant.ste FakeQuant.clipUnit (x4 (ix1 g)))

/-- The upper end of group `g` before the degenerate case is replaced. -/
def bEnd (g : Fin 131072) : EReal :=
  FakeQuant.groupHi (row x1 g) (FakeQuant.ste FakeQuant.clipUnit (x5 (ix1 g)))

/-- The step of group `g`. -/
def stepOf (g : Fin 131072) : EReal := FakeQuant.step (aEnd x1 x4 g) (bEnd x1 x5 g)

/-- The zero point of group `g`, straight-through spelling. -/
def zpOf (g : Fin 131072) : EReal :=
  FakeQuant.ste FakeQuant.rnd (Ideal.div (-(FakeQuant.lo (aEnd x1 x4 g) (bEnd x1 x5 g))) (stepOf x1 x4 x5 g))

theorem v2_at (g : Fin 131072) :
    val_main_v2 (F := Ideal) x4 (ix1 g) = FakeQuant.ste FakeQuant.clipUnit (x4 (ix1 g)) := by
  rw [val_main_v2_apply, val_main_v1_apply, val_main_v0_apply, val_main_call0_v4_apply, val_main_call0_v3_apply,
    val_main_cst_0_apply, val_main_call0_v2_apply, val_main_call0_v1_apply, val_main_call0_v0_apply, val_main_cst_apply]
  simp only [Ideal.addf_def, Ideal.subf_def, Ideal.minimumf_def, Ideal.maximumf_def, Ideal.ofBits_def,
    Ideal.ofBits_zero_f32, ofBits_neg_one]
  rfl

theorem v5_at (g : Fin 131072) :
    val_main_v5 (F := Ideal) x5 (ix1 g) = FakeQuant.ste FakeQuant.clipUnit (x5 (ix1 g)) := by
  rw [val_main_v5_apply, val_main_v4_apply, val_main_v3_apply, val_main_call1_v4_apply, val_main_call1_v3_apply,
    val_main_cst_2_apply, val_main_call1_v2_apply, val_main_call1_v1_apply, val_main_call1_v0_apply, val_main_cst_1_apply]
  simp only [Ideal.addf_def, Ideal.subf_def, Ideal.minimumf_def, Ideal.maximumf_def, Ideal.ofBits_def,
    Ideal.ofBits_zero_f32, ofBits_neg_one]
  rfl

/-- The row minimum: the fold of `min` from `⊤` over the group's weights. -/
theorem v8_at (g : Fin 131072) :
    val_main_v8 (F := Ideal) x1 (ix1 g) = (Finset.univ : Finset (Fin 128)).fold min ⊤ (row x1 g) := by
  unfold val_main_v8
  refine (RowMin.hostRowMin_apply (val_main_v6 (F := Ideal) x1) (val_main_cst_3 (F := Ideal))
    reducesTo_S131072x128_S131072_d1 (by decide) h_S_ g).trans ?_
  rw [val_main_cst_3_apply, Ideal.ofBits_def, RowMin.ofBits_pos_inf_f32]
  rfl

/-- The row maximum: the fold of `max` from `⊥` over the group's weights. -/
theorem v11_at (g : Fin 131072) :
    val_main_v11 (F := Ideal) x1 (ix1 g) = (Finset.univ : Finset (Fin 128)).fold max ⊥ (row x1 g) := by
  unfold val_main_v11
  refine (Gcn.Lib.hostRowMax_apply (val_main_v6 (F := Ideal) x1) (val_main_cst_5 (F := Ideal))
    reducesTo_S131072x128_S131072_d1 (by decide) h_S_ g).trans ?_
  rw [val_main_cst_5_apply, Ideal.ofBits_def, Gcn.Lib.ofBits_neg_inf_f32]
  rfl

theorem v16_at (g : Fin 131072) : val_main_v16 (F := Ideal) x1 x4 (ix1 g) = aEnd x1 x4 g := by
  rw [val_main_v16_apply, val_main_v10_apply, v8_at, val_main_v9_apply, val_main_cst_4_apply, val_main_v15_apply,
    v2_at, val_main_v14_apply, val_main_cst_7_apply]
  simp only [Ideal.mulf_def, Ideal.addf_def, Ideal.minimumf_def, Ideal.ofBits_def, Ideal.ofBits_zero_f32, ofBits_one]
  rfl

theorem v19_at (g : Fin 131072) : val_main_v19 (F := Ideal) x1 x5 (ix1 g) = bEnd x1 x5 g := by
  rw [val_main_v19_apply, val_main_v13_apply, v11_at, val_main_v12_apply, val_main_cst_6_apply, val_main_v18_apply,
    v5_at, val_main_v17_apply, val_main_cst_8_apply]
  simp only [Ideal.mulf_def, Ideal.addf_def, Ideal.maximumf_def, Ideal.ofBits_def, Ideal.ofBits_zero_f32, ofBits_one]
  rfl

/-- The lower end used: `−1` when both ends are `0`. -/
theorem v25_at (g : Fin 131072) :
    val_main_v25 (F := Ideal) x1 x4 x5 (ix1 g) = FakeQuant.lo (aEnd x1 x4 g) (bEnd x1 x5 g) := by
  rw [val_main_v25_apply, val_main_v24_apply, val_main_v21_apply, val_main_v23_apply, v16_at, v19_at,
    val_main_v20_apply, val_main_cst_9_apply, val_main_v22_apply, val_main_cst_10_apply, val_main_call2_v1_apply,
    val_main_call2_v0_apply, val_main_cst_11_apply]
  simp only [Ideal.cmpf_def, Ideal.ofBits_def, Ideal.ofBits_zero_f32, ofBits_neg_one]
  exact select_and_eq _ _ _ _

/-- The upper end used: `1` when both ends are `0`. -/
theorem v26_at (g : Fin 131072) :
    val_main_v26 (F := Ideal) x1 x4 x5 (ix1 g) = FakeQuant.hi (aEnd x1 x4 g) (bEnd x1 x5 g) := by
  rw [val_main_v26_apply, val_main_v24_apply, val_main_v21_apply, val_main_v23_apply, v16_at, v19_at,
    val_main_v20_apply, val_main_cst_9_apply, val_main_v22_apply, val_main_cst_10_apply, val_main_call3_v1_apply,
    val_main_call3_v0_apply, val_main_cst_12_apply]
  simp only [Ideal.cmpf_def, Ideal.ofBits_def, Ideal.ofBits_zero_f32, ofBits_one]
  exact select_and_eq _ _ _ _

theorem v29_at (g : Fin 131072) : val_main_v29 (F := Ideal) x1 x4 x5 (ix1 g) = stepOf x1 x4 x5 g := by
  rw [val_main_v29_apply, val_main_v27_apply, v26_at, v25_at, val_main_v28_apply, val_main_cst_13_apply]
  simp only [Ideal.hostDivf_def, Ideal.subf_def, Ideal.ofBits_def, ofBits_fifteen]
  rfl

theorem v31_at (g : Fin 131072) :
    val_main_v31 (F := Ideal) x1 x4 x5 (ix1 g)
      = Ideal.div (-(FakeQuant.lo (aEnd x1 x4 g) (bEnd x1 x5 g))) (stepOf x1 x4 x5 g) := by
  rw [val_main_v31_apply, val_main_v30_apply, v25_at, v29_at]
  simp only [Ideal.hostDivf_def, Ideal.hostNegf_def, Ideal.negf_def]

theorem v34_at (g : Fin 131072) : val_main_v34 (F := Ideal) x1 x4 x5 (ix1 g) = zpOf x1 x4 x5 g := by
  rw [val_main_v34_apply, val_main_v33_apply, val_main_v32_apply, v31_at]
  simp only [Ideal.addf_def, Ideal.subf_def, Ideal.hostUnary_roundeven_def]
  rfl

end Stages

/-! ### The fake-quantized weight at `(g, j)` -/

section Elements

variable (x1 x3 : (⟨S8192x2048, .f32⟩ : BufTy).Contents (Elt Ideal)) (x4 x5 : (⟨S131072, .f32⟩ : BufTy).Contents (Elt Ideal))

theorem v36_at (g : Fin 131072) (j : Fin 128) :
    val_main_v36 (F := Ideal) x1 x4 x5 (ix2 g j) = stepOf x1 x4 x5 g := by
  rw [val_main_v36_apply, val_main_v35_apply, ← v29_at]
  exact congrArg (val_main_v29 (F := Ideal) x1 x4 x5) (by funext a; match a with | ⟨0, _⟩ => rfl)

theorem v43_at (g : Fin 131072) (j : Fin 128) :
    val_main_v43 (F := Ideal) x1 x4 x5 (ix2 g j) = zpOf x1 x4 x5 g := by
  rw [val_main_v43_apply, val_main_v42_apply, ← v34_at]
  exact congrArg (val_main_v34 (F := Ideal) x1 x4 x5) (by funext a; match a with | ⟨0, _⟩ => rfl)

theorem v48_at (g : Fin 131072) (j : Fin 128) :
    val_main_v48 (F := Ideal) x1 x4 x5 (ix2 g j) = zpOf x1 x4 x5 g := by
  rw [val_main_v48_apply, val_main_v47_apply, ← v34_at]
  exact congrArg (val_main_v34 (F := Ideal) x1 x4 x5) (by funext a; match a with | ⟨0, _⟩ => rfl)

theorem v50_at (g : Fin 131072) (j : Fin 128) :
    val_main_v50 (F := Ideal) x1 x4 x5 (ix2 g j) = stepOf x1 x4 x5 g := by
  rw [val_main_v50_apply, val_main_v46_apply, ← v29_at]
  exact congrArg (val_main_v29 (F := Ideal) x1 x4 x5) (by funext a; match a with | ⟨0, _⟩ => rfl)

/-- The weight divided by the step, offset, and rounded in the straight-through spelling. -/
theorem v41_at (g : Fin 131072) (j : Fin 128) :
    val_main_v41 (F := Ideal) x1 x3 x4 x5 (ix2 g j)
      = FakeQuant.ste FakeQuant.rnd (Ideal.div (row x1 g j) (stepOf x1 x4 x5 g) + val_main_v7 (F := Ideal) x3 (ix2 g j)) := by
  rw [val_main_v41_apply, val_main_v40_apply, val_main_v39_apply, val_main_v38_apply, val_main_v37_apply, v36_at]
  simp only [Ideal.addf_def, Ideal.subf_def, Ideal.hostDivf_def, Ideal.hostUnary_roundeven_def]
  rfl

/-- The fake-quantized weight at position `j` of group `g`. -/
theorem v51_at (g : Fin 131072) (j : Fin 128) :
    val_main_v51 (F := Ideal) x1 x3 x4 x5 (ix2 g j)
      = FakeQuant.qR (row x1 g) (row x1 g j) (val_main_v7 (F := Ideal) x3 (ix2 g j)) (x4 (ix1 g)) (x5 (ix1 g)) := by
  rw [val_main_v51_apply, v50_at, val_main_v49_apply, v48_at, val_main_v45_apply, val_main_call6_v4_apply,
    val_main_call6_v3_apply, val_main_cst_15_apply, val_main_call6_v2_apply, val_main_call6_v1_apply,
    val_main_call6_v0_apply, val_main_cst_14_apply, val_main_v44_apply, v41_at, v43_at]
  simp only [Ideal.mulf_def, Ideal.subf_def, Ideal.addf_def, Ideal.minimumf_def, Ideal.maximumf_def, Ideal.ofBits_def,
    Ideal.ofBits_zero_f32, ofBits_fifteen]
  rfl

end Elements

/-! ### Back to the matrix coordinates -/

section Matrix

variable (x0 : (⟨S2x2048x2048, .f32⟩ : BufTy).Contents (Elt Ideal)) (x1 x3 : (⟨S8192x2048, .f32⟩ : BufTy).Contents (Elt Ideal))
  (x2 : (⟨S8192, .f32⟩ : BufTy).Contents (Elt Ideal)) (x4 x5 : (⟨S131072, .f32⟩ : BufTy).Contents (Elt Ideal))

/-- The position of column `c` within its group of 128 columns. -/
def off (c : Fin 2048) : Fin 128 := ⟨c.val % 128, Nat.mod_lt _ (by decide)⟩

/-- Entry `(r, c)` of the `[8192, 2048]` matrix is entry `c % 128` of group `16 r + c / 128`. -/
theorem idx52_eq (r : Fin 8192) (c : Fin 2048) : idx_main_v52 (ix2 r c) = ix2 (FakeQuant.grp r c) (off c) := by
  funext a
  match a with
  | ⟨0, _⟩ =>
    apply Fin.ext
    show (r.val * 2048 + c.val) / 128 = 16 * r.val + c.val / 128
    omega
  | ⟨1, _⟩ =>
    apply Fin.ext
    show (r.val * 2048 + c.val) % 128 = c.val % 128
    omega

/-- Entry `k` of the group of `(r, c)` is entry `(r, 128 (c / 128) + k)` of the matrix. -/
theorem idx6_col (r : Fin 8192) (c : Fin 2048) (k : Fin 128) :
    idx_main_v6 (ix2 (FakeQuant.grp r c) k) = ix2 r (FakeQuant.col c k) := by
  have hc := c.isLt
  have hk := k.isLt
  funext a
  match a with
  | ⟨0, _⟩ =>
    apply Fin.ext
    show ((16 * r.val + c.val / 128) * 128 + k.val) / 2048 = r.val
    omega
  | ⟨1, _⟩ =>
    apply Fin.ext
    show ((16 * r.val + c.val / 128) * 128 + k.val) % 2048 = 128 * (c.val / 128) + k.val
    omega

theorem idx6_self (r : Fin 8192) (c : Fin 2048) : idx_main_v6 (ix2 (FakeQuant.grp r c) (off c)) = ix2 r c := by
  have hc := c.isLt
  funext a
  match a with
  | ⟨0, _⟩ =>
    apply Fin.ext
    show ((16 * r.val + c.val / 128) * 128 + c.val % 128) / 2048 = r.val
    omega
  | ⟨1, _⟩ =>
    apply Fin.ext
    show ((16 * r.val + c.val / 128) * 128 + c.val % 128) % 2048 = c.val
    omega

theorem idx7_self (r : Fin 8192) (c : Fin 2048) : idx_main_v7 (ix2 (FakeQuant.grp r c) (off c)) = ix2 r c := by
  have hc := c.isLt
  funext a
  match a with
  | ⟨0, _⟩ =>
    apply Fin.ext
    show ((16 * r.val + c.val / 128) * 128 + c.val % 128) / 2048 = r.val
    omega
  | ⟨1, _⟩ =>
    apply Fin.ext
    show ((16 * r.val + c.val / 128) * 128 + c.val % 128) % 2048 = c.val
    omega

/-- The fake-quantized weight matrix at `(r, c)`. -/
theorem v52_at (r : Fin 8192) (c : Fin 2048) :
    val_main_v52 (F := Ideal) x1 x3 x4 x5 (ix2 r c) = FakeQuant.wqR x1 x3 x4 x5 r c := by
  have hw : row x1 (FakeQuant.grp r c) (off c) = x1 (ix2 r c) := by
    unfold row
    rw [val_main_v6_apply, idx6_self]
  have hv : val_main_v7 (F := Ideal) x3 (ix2 (FakeQuant.grp r c) (off c)) = x3 (ix2 r c) := by
    rw [val_main_v7_apply, idx7_self]
  have hrow : row x1 (FakeQuant.grp r c) = fun k => x1 (ix2 r (FakeQuant.col c k)) := by
    funext k
    unfold row
    rw [val_main_v6_apply, idx6_col]
  rw [val_main_v52_apply, idx52_eq, v51_at, hw, hv, hrow]
  rfl

/-- The transposed weight matrix at `(k, q)`. -/
theorem v54_at (k : Fin 2048) (q : Fin 8192) :
    val_main_v54 (F := Ideal) x1 x3 x4 x5 (ix2 k q) = FakeQuant.wqR x1 x3 x4 x5 q k := by
  rw [val_main_v54_apply, ← v52_at]
  exact congrArg (val_main_v52 (F := Ideal) x1 x3 x4 x5) (by funext a; match a with | ⟨0, _⟩ => rfl | ⟨1, _⟩ => rfl)

/-- The reference's output at `(p, q)`: the bias plus row `p` of the input against row `q` of the fake-quantized
    weights. -/
theorem ref_entry (x0 : (⟨S2x2048x2048, .f32⟩ : BufTy).Contents (Elt Ideal)) (x1 : (⟨S8192x2048, .f32⟩ : BufTy).Contents (Elt Ideal))
    (x2 : (⟨S8192, .f32⟩ : BufTy).Contents (Elt Ideal)) (x3 : (⟨S8192x2048, .f32⟩ : BufTy).Contents (Elt Ideal))
    (x4 x5 : (⟨S131072, .f32⟩ : BufTy).Contents (Elt Ideal)) (p : Fin 4096) (q : Fin 8192) :
    val_main_v58 (F := Ideal) x0 x1 x2 x3 x4 x5 (ix2 p q)
      = FakeQuant.outR (val_main_v53 (F := Ideal) x0) x2 x1 x3 x4 x5 p q := by
  have hb : x2 (idx_main_v56 (idx_main_v57 (ix2 p q))) = x2 (ix1 q) :=
    congrArg x2 (by funext a; match a with | ⟨0, _⟩ => rfl)
  rw [val_main_v58_apply, val_main_v57_apply, val_main_v56_apply, val_main_v55_apply, hb]
  unfold FakeQuant.outR
  simp only [Ideal.addf_def]
  congr 1
  refine Finset.sum_congr rfl fun k _ => ?_
  have hl : lidx_main_v55 (ix2 p q) k = ix2 p k := by
    funext a; match a with | ⟨0, _⟩ => rfl | ⟨1, _⟩ => rfl
  have hr : ridx_main_v55 (ix2 p q) k = ix2 k q := by
    funext a; match a with | ⟨0, _⟩ => rfl | ⟨1, _⟩ => rfl
  rw [hl, hr, v54_at]

end Matrix

end Cert.ReferenceIdeal.RefValue

end
-- ==== Proof.RefArray.lean ====
/-
  The reference program's result as an array of the arguments.

  The reference's last operation reshapes its `[4096, 8192]` sum "bias + activations · quantized weightsᵀ" to
  `[2, 2048, 8192]`. Entry by entry that sum is the layer in the straight-through spelling (RefValue), so the result is
  the reshape of `FakeQuant.outArrR` of the arguments — and of `FakeQuant.outArr` when the weights, the rounding offsets
  and the two range-factor vectors hold real numbers, which is where `x + (f x − x) = f x`.
-/
import proofs.«117316_j10024453669436_2_alg».proof.Proof.RefValue
import proofs.«117316_j10024453669436_2_alg».proof.Proof.SpecArray

noncomputable section

namespace Cert.ReferenceIdeal.RefArray

open Cert.ReferenceIdeal Cert.ReferenceIdeal.Gen Cert.ReferenceIdeal.Read Idealize.ShloMosaic Idealize.ShloMosaic.ValueIdx

variable (x0 : (⟨S2x2048x2048, .f32⟩ : BufTy).Contents (Elt Ideal)) (x1 : (⟨S8192x2048, .f32⟩ : BufTy).Contents (Elt Ideal))
  (x2 : (⟨S8192, .f32⟩ : BufTy).Contents (Elt Ideal)) (x3 : (⟨S8192x2048, .f32⟩ : BufTy).Contents (Elt Ideal))
  (x4 x5 : (⟨S131072, .f32⟩ : BufTy).Contents (Elt Ideal))

/-- The `[4096, 8192]` sum is the layer's output array in the straight-through spelling. -/
theorem sum_eq : val_main_v58 (F := Ideal) x0 x1 x2 x3 x4 x5
    = FakeQuant.outArrR (shapeCast S4096x2048 x0 shapeCasts_S2x2048x2048_S4096x2048) x2 x1 x3 x4 x5 := by
  funext j
  obtain ⟨p, q, rfl⟩ : ∃ (p : Fin 4096) (q : Fin 8192), j = ix2 p q := ⟨j 0, j 1, eq_ix2 j⟩
  exact Cert.ReferenceIdeal.RefValue.ref_entry x0 x1 x2 x3 x4 x5 p q

/-- For finite quantization inputs the reference's result is the reshape of the layer's output array. -/
theorem result_eq (h1 : ∀ i, ∃ r : ℝ, x1 i = (r : EReal)) (h3 : ∀ i, ∃ r : ℝ, x3 i = (r : EReal))
    (h4 : ∀ i, ∃ r : ℝ, x4 i = (r : EReal)) (h5 : ∀ i, ∃ r : ℝ, x5 i = (r : EReal)) :
    val_main_v59 (F := Ideal) x0 x1 x2 x3 x4 x5
      = shapeCast S2x2048x8192
          (FakeQuant.outArr (shapeCast S4096x2048 x0 shapeCasts_S2x2048x2048_S4096x2048) x2 x1 x3 x4 x5)
          shapeCasts_S4096x8192_S2x2048x8192 := by
  unfold val_main_v59
  rw [sum_eq, FakeQuant.outArrR_eq_outArr _ _ _ _ _ _ h1 h3 h4 h5]

end Cert.ReferenceIdeal.RefArray

end
-- ==== Proof.Finite.lean ====
/-
  Finiteness of the kernel's arguments, read back from the precondition.

  The precondition is the conjunction of six tests "every entry `x` of this array has `|x| < +∞`", each an
  `and`-reduction over the whole array of the comparison of `max x (−x)` against the extended real the word
  `0x7F800000` denotes, which is `⊤`. An `and`-reduction that is 1 had a 1 at every index; and `max x (−x) < ⊤`
  excludes `x = ⊤` (then the maximum is `⊤`) and `x = ⊥` (then `−x = ⊤`), so `x` is a real number.
-/
import proofs.«117316_j10024453669436_2_alg».proof.Defs
import Idealize.ShloMosaic.Lib.ReduceAll
import Idealize.ShloMosaic.Lib.ValueIdx

noncomputable section

namespace Cert.Finite

open Idealize.ShloMosaic Idealize.SL.Sem

/-- The rank-0 shape has one index. -/
instance : Subsingleton Cert.Pre_finite_inputs.S_.Idx := ⟨fun a b => funext fun d => d.elim0⟩

/-- The word `0x7F800000` denotes `+∞`. -/
theorem inf_word : Ideal.ofBits .f32 0x7F800000#32 = (⊤ : EReal) := by
  simp [Ideal.ofBits, Ideal.ieee]

/-- An extended real whose absolute value is below `+∞` is a real number. -/
theorem real_of_abs_lt_inf (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | coe r => exact ⟨r, rfl⟩
  | top => simp [Ideal.cmp] at h

/-- A conjunction of two `i1` arrays that is 1 at an index has both 1 there. -/
theorem andi_split {s : Shape} (x y : IVec s 1) (i : s.Idx) (h : andi x y i = 1#1) : x i = 1#1 ∧ y i = 1#1 :=
  IntOp.andi_eq_one.1 h

/-- One test of the precondition: if the `and`-reduction of `|x| < +∞` over all of `x` is 1, every entry is real. -/
theorem real_of_all_lt_inf {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi
        (cmpf .olt (Host.absf x) (broadcastInDim s ![] hb (constant Cert.Pre_finite_inputs.S_ .f32 0x7F800000#32)))
        init hr hu ValueIdx.ix0 = 1#1)
    (i : s.Idx) : ∃ r : ℝ, x i = (r : EReal) :=
  real_of_abs_lt_inf (x i) (Host.reduce_andi_all _ init hr hu ValueIdx.ix0 e i)

/-- Under the precondition the weights, the rounding offsets and both arrays of range factors are real. -/
theorem real_of_pre [hPre : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) :
      (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal)) := by
  have h0 := congrFun (h c) ValueIdx.ix0
  dsimp only [Cert.Pre_finite_inputs.fn, Cert.Pre_finite_inputs.fn_part1] at h0
  obtain ⟨h1, h27⟩ := andi_split _ _ _ h0
  obtain ⟨h2, h22⟩ := andi_split _ _ _ h1
  obtain ⟨h3, h17⟩ := andi_split _ _ _ h2
  obtain ⟨h4, _⟩ := andi_split _ _ _ h3
  obtain ⟨_, h7⟩ := andi_split _ _ _ h4
  exact ⟨fun i => real_of_all_lt_inf _ _ _ _ _ h7 i, fun i => real_of_all_lt_inf _ _ _ _ _ h17 i,
    fun i => real_of_all_lt_inf _ _ _ _ _ h22 i, fun i => real_of_all_lt_inf _ _ _ _ _ h27 i⟩

end Cert.Finite

end
-- ==== Proof.lean ====
/-
  The certificate of a linear layer over groupwise fake-quantized weights, computed by two Pallas kernels, against
  its jnp reference: `frame` of the three programs, `preserves` (the idealization rewrote nothing), and `algebraic`.

  The mathematics. The weights `W : [8192, 2048]` are fake-quantized in groups of 128 consecutive columns of a row
  (the range of a group from its minimum and maximum, shrunk by two learnt factors clamped to [−1, 0]; a step of a
  fifteenth of the range; round, clamp to the 16 levels, map back), and the layer is
  `out (p, q) = ∑ k, X (p, k) · Wq (q, k) + B q`. The kernel program quantizes in one region, 512 rows at a point and
  group by group, and multiplies in a second region whose 4 × 8 grid walks the row blocks back and forth; the
  reference quantizes the weights as a `[131072, 128]` array of groups, writes every clamp and rounding in the
  straight-through form `x + (f x − x)`, transposes and calls one matrix product. On the extended reals a change of
  float format is the identity and both matrix products are the same sum, so the two results differ only in the
  straight-through forms and in the order of one addition; `x + (f x − x) = f x` needs `x` to be a real number, which
  is what the precondition (every input finite) gives: the quantization step is then a nonzero real, and every
  argument of a rounding is real.

  The kernel program's value is read off its run segment by segment (KernelValue), the reference's off its generated
  run one operation at a time (RefValue, RefArray); both are the reshape to `[2, 2048, 8192]` of ONE array of the
  arguments, `FakeQuant.outArr`.
-/
import proofs.«117316_j10024453669436_2_alg».proof.Defs
import proofs.«117316_j10024453669436_2_alg».proof.Proof.Gen.Kernel
import proofs.«117316_j10024453669436_2_alg».proof.Proof.Gen.Kernel.Skeleton
import proofs.«117316_j10024453669436_2_alg».proof.Proof.Gen.Kernel.Launch
import proofs.«117316_j10024453669436_2_alg».proof.Proof.Gen.Kernel.Points
import proofs.«117316_j10024453669436_2_alg».proof.Proof.Gen.Kernel.Frame
import proofs.«117316_j10024453669436_2_alg».proof.Proof.Gen.KernelIdeal
import proofs.«117316_j10024453669436_2_alg».proof.Proof.Gen.KernelIdeal.Skeleton
import proofs.«117316_j10024453669436_2_alg».proof.Proof.Gen.KernelIdeal.Launch
import proofs.«117316_j10024453669436_2_alg».proof.Proof.Gen.KernelIdeal.Points
import proofs.«117316_j10024453669436_2_alg».proof.Proof.Gen.KernelIdeal.Frame
import proofs.«117316_j10024453669436_2_alg».proof.Proof.Gen.ReferenceIdeal
import proofs.«117316_j10024453669436_2_alg».proof.Proof.Gen.ReferenceIdeal.Run
import proofs.«117316_j10024453669436_2_alg».proof.Proof.Gen.ReferenceIdeal.Read
import proofs.«117316_j10024453669436_2_alg».proof.Proof.Gen.Pre_finite_inputs
import proofs.«117316_j10024453669436_2_alg».proof.Proof.KernelValue
import proofs.«117316_j10024453669436_2_alg».proof.Proof.RefArray
import proofs.«117316_j10024453669436_2_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- The idealized kernel program runs and leaves its arguments unchanged. -/
theorem frame_kernelIdeal : Cert.frame_KernelIdeal := fun m ρ _ => Cert.KernelIdeal.Gen.frame m ρ

/-- The idealized reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, all finite, both idealized programs end with the layer's output array of
    the arguments, reshaped to `[2, 2048, 8192]`. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨h1, h3, h4, h5⟩ := Cert.Finite.real_of_pre m hpre c
  obtain ⟨a0, a1, a2, a3, a4, a5⟩ := hagree c
  rw [Cert.ReferenceIdeal.Read.val_main_v59_eq, a0, a1, a2, a3, a4, a5]
  exact Cert.ReferenceIdeal.RefArray.result_eq _ _ _ _ _ _ h1 h3 h4 h5

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
